-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64x256 .f32) (main_v63 : IVec S_ 1) (main_v67 : IVec S_ 1) : IVec S_ 1 :=
  let main_v68 : IVec S_ 1 := andi main_v63 main_v67
  let main_v69 : FVec F S64x256 .f32 := Host.absf main_arg15
  let main_cst_26 : FVec F S_ .f32 := constant S_ .f32 0x7F800000#32
  let main_v70 : FVec F S64x256 .f32 := broadcastInDim S64x256 ![] bcast_S_S64x256 main_cst_26
  let main_v71 : IVec S64x256 1 := cmpf .olt main_v69 main_v70
  let main_c_27 : IVec S_ 1 := constantI S_ 1 1#1
  let main_v72 : IVec S_ 1 := (fun x v => Host.reduce IntOp.andi x v reducesTo_S64x256_S_d0_1 h_S_) main_v71 main_c_27
  let main_v73 : IVec S_ 1 := andi main_v68 main_v72
  main_v73

def fn_part3 {F : FTy → Type} [FloatOps F] (main_arg12 : FVec F S256 .f32) (main_arg13 : FVec F S64x256 .f32) (main_arg14 : FVec F S64 .f32) (main_arg15 : FVec F S64x256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S64x256 .f32 := Host.absf main_arg13
  let main_cst_22 : FVec F S_ .f32 := constant S_ .f32 0x7F800000#32
  let main_v60 : FVec F S64x256 .f32 := broadcastInDim S64x256 ![] bcast_S_S64x256 main_cst_22
  let main_v61 : IVec S64x256 1 := cmpf .olt main_v59 main_v60
  let main_c_23 : IVec S_ 1 := constantI S_ 1 1#1
  let main_v62 : IVec S_ 1 := (fun x v => Host.reduce IntOp.andi x v reducesTo_S64x256_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_v63 main_v67

def fn_part2 {F : FTy → Type} [FloatOps F] (main_arg8 : FVec F S256x256 .f32) (main_arg9 : FVec F S256 .f32) (main_arg10 : FVec F S256x256 .f32) (main_arg11 : FVec F S256 .f32) (main_arg12 : FVec F S256 .f32) (main_arg13 : FVec F S64x256 .f32) (main_arg14 : FVec F S64 .f32) (main_arg15 : FVec F S64x256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_v48 main_v49 main_v50

def fn_part1 {F : FTy → Type} [FloatOps F] (main_arg5 : FVec F S256x128 .f32) (main_arg6 : FVec F S256 .f32) (main_arg7 : FVec F S256 .f32) (main_arg8 : FVec F S256x256 .f32) (main_arg9 : FVec F S256 .f32) (main_arg10 : FVec F S256x256 .f32) (main_arg11 : FVec F S256 .f32) (main_arg12 : FVec F S256 .f32) (main_arg13 : FVec F S64x256 .f32) (main_arg14 : FVec F S64 .f32) (main_arg15 : FVec F S64x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S800000 .f32) (main_arg3 : FVec F S256x128 .f32) (main_arg4 : FVec F S256 .f32) (main_arg5 : FVec F S256x128 .f32) (main_arg6 : FVec F S256 .f32) (main_arg7 : FVec F S256 .f32) (main_arg8 : FVec F S256x256 .f32) (main_arg9 : FVec F S256 .f32) (main_arg10 : FVec F S256x256 .f32) (main_arg11 : FVec F S256 .f32) (main_arg12 : FVec F S256 .f32) (main_arg13 : FVec F S64x256 .f32) (main_arg14 : FVec F S64 .f32) (main_arg15 : FVec F S64x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S256x64 : Shape := ⟨2, ![256, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 116
  | .vmem => 43
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S256, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S64x256, .f32⟩
  | .hbm, ⟨14, _⟩ => ⟨S64, .f32⟩
  | .hbm, ⟨15, _⟩ => ⟨S64x256, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x1, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x256, .f32⟩
  | .hbm, ⟨37, _⟩ => ⟨S128x256, .f32⟩
  | .hbm, ⟨38, _⟩ => ⟨S1x256, .f32⟩
  | .hbm, ⟨39, _⟩ => ⟨S50000x256, .f32⟩
  | .hbm, ⟨40, _⟩ => ⟨S_, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S50000x256, .f32⟩
  | .hbm, ⟨49, _⟩ => ⟨S_, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S50000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S800000x1, .f32⟩
  | .hbm, ⟨68, _⟩ => ⟨S800000x256, .f32⟩
  | .hbm, ⟨69, _⟩ => ⟨S800000x256, .f32⟩
  | .hbm, ⟨70, _⟩ => ⟨S_, .f32⟩
  | .hbm, ⟨71, _⟩ => ⟨S50000x256, .f32⟩
  | .hbm, ⟨72, _⟩ => ⟨S800000x1, .i32⟩
  | .hbm, ⟨73, _⟩ => ⟨S50000x256, .f32⟩
  | .hbm, ⟨74, _⟩ => ⟨S256x256, .f32⟩
  | .hbm, ⟨75, _⟩ => ⟨S256x256, .f32⟩
  | .hbm, ⟨76, _⟩ => ⟨S1x256, .f32⟩
  | .hbm, ⟨77, _⟩ => ⟨S50000x256, .f32⟩
  | .hbm, ⟨78, _⟩ => ⟨S_, .f32⟩
  | .hbm, ⟨79, _⟩ => ⟨S256, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S1x256, .f32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S_, .f32⟩
  | .hbm, ⟨88, _⟩ => ⟨S256, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S50000x256, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S800000x256, .f32⟩
  | .hbm, ⟨105, _⟩ => ⟨S800000x1, .f32⟩
  | .hbm, ⟨106, _⟩ => ⟨S800000x256, .f32⟩
  | .hbm, ⟨107, _⟩ => ⟨S800000x256, .f32⟩
  | .hbm, ⟨108, _⟩ => ⟨S_, .f32⟩
  | .hbm, ⟨109, _⟩ => ⟨S50000x256, .f32⟩
  | .hbm, ⟨110, _⟩ => ⟨S800000x1, .i32⟩
  | .hbm, ⟨111, _⟩ => ⟨S50000x256, .f32⟩
  | .hbm, ⟨112, _⟩ => ⟨S256x64, .f32⟩
  | .hbm, ⟨113, _⟩ => ⟨S256x64, .f32⟩
  | .hbm, ⟨114, _⟩ => ⟨S1x64, .f32⟩
  | .hbm, ⟨115, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S5000x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S256x256, .f32⟩
  | .local _ .vmem, ⟨22, _⟩ => ⟨S256x256, .f32⟩
  | .local _ .vmem, ⟨23, _⟩ => ⟨S1x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S5000x256, .f32⟩
  | .local _ .vmem, ⟨33, _⟩ => ⟨S5000x256, .f32⟩
  | .local _ .vmem, ⟨34, _⟩ => ⟨S5000x256, .f32⟩
  | .local _ .vmem, ⟨35, _⟩ => ⟨S5000x256, .f32⟩
  | .local _ .vmem, ⟨36, _⟩ => ⟨S5000x256, .f32⟩
  | .local _ .vmem, ⟨37, _⟩ => ⟨S5000x256, .f32⟩
  | .local _ .vmem, ⟨38, _⟩ => ⟨S256x64, .f32⟩
  | .local _ .vmem, ⟨39, _⟩ => ⟨S256x64, .f32⟩
  | .local _ .vmem, ⟨40, _⟩ => ⟨S1x64, .f32⟩
  | .local _ .vmem, ⟨41, _⟩ => ⟨S5000x64, .f32⟩
  | .local _ .vmem, ⟨42, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  reducesTo_S50000x256_S256_d0 : S50000x256.ReducesTo [0] S256
  h_S_ : 0 < S_.numel
  bcast_S_S256 : S_.BroadcastsInDim S256 (![] : Fin 0 → Fin S256.rank)
  bcast_S1x256_S50000x256_0_1 : S1x256.BroadcastsInDim S50000x256 (![0, 1] : Fin 2 → Fin S50000x256.rank)
  shapeCasts_S5000x256_S5000x256 : S5000x256.ShapeCasts S5000x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S64x256_S256x64_1_0 : S64x256.Transposes [1, 0] S256x64
  shapeCasts_S64_S1x64 : S64.ShapeCasts S1x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S50000x256.size a
  hwx2_5 : ∀ i : grid2.Coords, EltTy.bits .f32 = 32 ∨ (Rect.block (s := S50000x256) S5000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x256.size a ≤ S50000x256.size a
  hwx3_5 : ∀ i : grid3.Coords, EltTy.bits .f32 = 32 ∨ (Rect.block (s := S50000x256) S5000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x256.size a ≤ S50000x256.size a
  hwx4_1 : ∀ i : grid4.Coords, EltTy.bits .f32 = 32 ∨ (Rect.block (s := S50000x256) S5000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x64.size a ≤ S256x64.size a
  hwx4_2 : ∀ i : grid4.Coords, EltTy.bits .f32 = 32 ∨ (Rect.block (s := S256x64) S256x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x64.size a ≤ S256x64.size a
  hwx4_3 : ∀ i : grid4.Coords, EltTy.bits .f32 = 32 ∨ (Rect.block (s := S256x64) S256x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S5000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S5000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v78) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S256x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S256x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x64 : Shape := ⟨2, ![256, 64]⟩
abbrev S50000x64 : Shape := ⟨2, ![50000, 64]⟩
abbrev S1x64 : Shape := ⟨2, ![1, 64]⟩

abbrev nBuf : Space → Nat
  | .hbm => 158
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S256x128, .f32⟩
  | 4 => ⟨S256, .f32⟩
  | 5 => ⟨S256x128, .f32⟩
  | 6 => ⟨S256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256, .f32⟩
  | 13 => ⟨S64x256, .f32⟩
  | 14 => ⟨S64, .f32⟩
  | 15 => ⟨S64x256, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S800000x1, .f32⟩
  | 30 => ⟨S800000x128, .f32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S128x256, .f32⟩
  | 37 => ⟨S50000x256, .f32⟩
  | 38 => ⟨S1x256, .f32⟩
  | 39 => ⟨S50000x256, .f32⟩
  | 40 => ⟨S50000x256, .f32⟩
  | 41 => ⟨S128x256, .f32⟩
  | 42 => ⟨S50000x256, .f32⟩
  | 43 => ⟨S50000x256, .f32⟩
  | 44 => ⟨S_, .f32⟩
  | 45 => ⟨S256, .f32⟩
  | 46 => ⟨S_, .f32⟩
  | 47 => ⟨S256, .f32⟩
  | 48 => ⟨S256, .f32⟩
  | 49 => ⟨S1x256, .f32⟩
  | 50 => ⟨S50000x256, .f32⟩
  | 51 => ⟨S50000x256, .f32⟩
  | 52 => ⟨S50000x256, .f32⟩
  | 53 => ⟨S_, .f32⟩
  | 54 => ⟨S256, .f32⟩
  | 55 => ⟨S_, .f32⟩
  | 56 => ⟨S256, .f32⟩
  | 57 => ⟨S256, .f32⟩
  | 58 => ⟨S1x256, .f32⟩
  | 59 => ⟨S50000x256, .f32⟩
  | 60 => ⟨S50000x256, .f32⟩
  | 61 => ⟨S_, .f32⟩
  | 62 => ⟨S256, .f32⟩
  | 63 => ⟨S256, .f32⟩
  | 64 => ⟨S256, .f32⟩
  | 65 => ⟨S1x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x256, .f32⟩
  | 86 => ⟨S800000x1, .f32⟩
  | 87 => ⟨S800000x256, .f32⟩
  | 88 => ⟨S800000x256, .f32⟩
  | 89 => ⟨S_, .f32⟩
  | 90 => ⟨S50000x256, .f32⟩
  | 91 => ⟨S800000x1, .i32⟩
  | 92 => ⟨S50000x256, .f32⟩
  | 93 => ⟨S256x256, .f32⟩
  | 94 => ⟨S50000x256, .f32⟩
  | 95 => ⟨S1x256, .f32⟩
  | 96 => ⟨S50000x256, .f32⟩
  | 97 => ⟨S50000x256, .f32⟩
  | 98 => ⟨S256x256, .f32⟩
  | 99 => ⟨S50000x256, .f32⟩
  | 100 => ⟨S50000x256, .f32⟩
  | 101 => ⟨S_, .f32⟩
  | 102 => ⟨S256, .f32⟩
  | 103 => ⟨S_, .f32⟩
  | 104 => ⟨S256, .f32⟩
  | 105 => ⟨S256, .f32⟩
  | 106 => ⟨S1x256, .f32⟩
  | 107 => ⟨S50000x256, .f32⟩
  | 108 => ⟨S50000x256, .f32⟩
  | 109 => ⟨S50000x256, .f32⟩
  | 110 => ⟨S_, .f32⟩
  | 111 => ⟨S256, .f32⟩
  | 112 => ⟨S_, .f32⟩
  | 113 => ⟨S256, .f32⟩
  | 114 => ⟨S256, .f32⟩
  | 115 => ⟨S1x256, .f32⟩
  | 116 => ⟨S50000x256, .f32⟩
  | 117 => ⟨S50000x256, .f32⟩
  | 118 => ⟨S_, .f32⟩
  | 119 => ⟨S256, .f32⟩
  | 120 => ⟨S256, .f32⟩
  | 121 => ⟨S256, .f32⟩
  | 122 => ⟨S1x256, .f32⟩
  | 123 => ⟨S50000x256, .f32⟩
  | 124 => ⟨S50000x256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S1x256, .f32⟩
  | 1 => ⟨S50000x256, .f32⟩
  | 2 => ⟨S50000x256, .f32⟩
  | 3 => ⟨S_, .f32⟩
  | 4 => ⟨S50000x256, .f32⟩
  | 5 => ⟨S50000x256, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x256, .f32⟩
  | 15 => ⟨S800000x1, .f32⟩
  | 16 => ⟨S800000x256, .f32⟩
  | 17 => ⟨S800000x256, .f32⟩
  | 18 => ⟨S_, .f32⟩
  | 19 => ⟨S50000x256, .f32⟩
  | 20 => ⟨S800000x1, .i32⟩
  | 21 => ⟨S50000x256, .f32⟩
  | 22 => ⟨S256x64, .f32⟩
  | 23 => ⟨S50000x64, .f32⟩
  | 24 => ⟨S1x64, .f32⟩
  | 25 => ⟨S50000x64, .f32⟩
  | 26 => ⟨S50000x64, .f32⟩
  | 27 => ⟨S256x64, .f32⟩
  | 28 => ⟨S50000x64, .f32⟩
  | 29 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call0_cst : Ref sig .tc := ⟨.hbm, 74, rfl⟩
abbrev main_call0_v0 : Ref sig .tc := ⟨.hbm, 75, rfl⟩
abbrev main_v50 : Ref sig .tc := ⟨.hbm, 76, rfl⟩
abbrev main_c_6 : Ref sig .tc := ⟨.hbm, 77, rfl⟩
abbrev main_v51 : Ref sig .tc := ⟨.hbm, 78, rfl⟩
abbrev main_v52 : Ref sig .tc := ⟨.hbm, 79, rfl⟩
abbrev main_c_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_9 : Ref sig .tc := ⟨.hbm, 101, rfl⟩
abbrev main_v72 : Ref sig .tc := ⟨.hbm, 102, rfl⟩
abbrev main_cst_10 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_11 : Ref sig .tc := ⟨.hbm, 110, rfl⟩
abbrev main_v79 : Ref sig .tc := ⟨.hbm, 111, rfl⟩
abbrev main_cst_12 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_13 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_call1_cst : Ref sig .tc := ⟨.hbm, 131, rfl⟩
abbrev main_call1_v0 : Ref sig .tc := ⟨.hbm, 132, rfl⟩
abbrev main_v97 : Ref sig .tc := ⟨.hbm, 133, rfl⟩
abbrev main_c_14 : Ref sig .tc := ⟨.hbm, 134, rfl⟩
abbrev main_v98 : Ref sig .tc := ⟨.hbm, 135, rfl⟩
abbrev main_v99 : Ref sig .tc := ⟨.hbm, 136, rfl⟩
abbrev main_c_15 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_16 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S50000x256 : S_.BroadcastsInDim S50000x256 (![] : Fin 0 → Fin S50000x256.rank)
  bcast_S800000x1_S800000x256_0_1 : S800000x1.BroadcastsInDim S800000x256 (![0, 1] : Fin 2 → Fin S800000x256.rank)
  transposes_S256x256_S256x256_1_0 : S256x256.Transposes [1, 0] S256x256
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.RunResult.lean ====
/-
  The kernel program's run with its result named. The program is five pipelined regions among stretches of host
  operations; its run ends, on every core, with every buffer that is not scoped to a region holding the contents the
  program's operations fold the launch memory to (`W10`: each stretch of host operations applied in turn, each region's
  arrays replaced by what its write-backs leave). Read at the result buffer this gives the result array; read at an
  argument it gives the argument as launched.
-/
import proofs.«162949_j2602750181462_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the fold's contents and the
    arguments end as launched. -/
theorem run_result : θ_run defs (onTc (τ := τ) (main (F := F))) ⟨m, fun _ => 0, ρ⟩ (fun r => ∀ c : Dev nD,
      r.2.mem ((c.tc : Thread nD τ).loc main_v82) = W10 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v82 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.Hand

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.LibDenseRows.lean ====
/-
  The dense steps of a layer as functions of whole matrices, entry by entry, on the extended reals (general in the extents):

    matProd X W   the product of an m×k matrix by a k×n matrix: entry (a, b) is  ∑ c, X (a, c) · W (c, b);
    addRow A B    a one-row matrix B added to every row of A: entry (a, b) is  A (a, b) + B (0, b);
    addRowRelu    the same followed by the rectifier, max (·, 0).

  with the host's forms of the same functions: `dot_general` (contracting [1]×[0]) is `matProd`; the sum with a vector laid
  along every row (the vector made one row, the row laid down the rows) is `addRow` of the vector cast to a one-row matrix;
  that sum followed by `maximum` with the zero constant is `addRowRelu`. A program that computes these a row block at a time
  and one that computes them in one host operation agree entry by entry, in the same order of operations: no law of
  arithmetic is needed to join them, so no finiteness of the inputs either.
  (It imports this directory's copy of LibMatDot.lean: a matrix product read at an entry, row broadcasts read at an entry.)
-/
import proofs.«162949_j2602750181462_1_alg».proof.Proof.LibMatDot

noncomputable section

open scoped BigOperators

namespace Cert.Dense

open Idealize.ShloMosaic Idealize.ShloMosaic.ValueIdx

variable {m k n : ℕ}

/-- The matrix product: entry `(a, b)` is `∑ c, X (a, c) * W (c, b)`. -/
def matProd (X : FVec Ideal ⟨2, ![m, k]⟩ .f32) (W : FVec Ideal ⟨2, ![k, n]⟩ .f32) : FVec Ideal ⟨2, ![m, n]⟩ .f32 :=
  fun i => ∑ c : Fin k, X (ix2 (⟨(i 0).val, idx2_lt0 i⟩ : Fin m) c) * W (ix2 c (⟨(i 1).val, idx2_lt1 i⟩ : Fin n))

theorem matProd_apply (X : FVec Ideal ⟨2, ![m, k]⟩ .f32) (W : FVec Ideal ⟨2, ![k, n]⟩ .f32) (a : Fin m) (b : Fin n) :
    matProd X W (ix2 a b) = ∑ c : Fin k, X (ix2 a c) * W (ix2 c b) := rfl

/-- A one-row matrix added to every row: entry `(a, b)` is `A (a, b) + B (0, b)`. -/
def addRow (A : FVec Ideal ⟨2, ![m, n]⟩ .f32) (B : FVec Ideal ⟨2, ![1, n]⟩ .f32) : FVec Ideal ⟨2, ![m, n]⟩ .f32 :=
  fun i => A i + B (ix2 (0 : Fin 1) (⟨(i 1).val, idx2_lt1 i⟩ : Fin n))

theorem addRow_apply (A : FVec Ideal ⟨2, ![m, n]⟩ .f32) (B : FVec Ideal ⟨2, ![1, n]⟩ .f32) (a : Fin m) (b : Fin n) :
    addRow A B (ix2 a b) = A (ix2 a b) + B (ix2 (0 : Fin 1) b) := rfl

/-- The row added, then the rectifier: entry `(a, b)` is `max (A (a, b) + B (0, b)) 0`. -/
def addRowRelu (A : FVec Ideal ⟨2, ![m, n]⟩ .f32) (B : FVec Ideal ⟨2, ![1, n]⟩ .f32) : FVec Ideal ⟨2, ![m, n]⟩ .f32 :=
  fun i => max (addRow A B i) (Ideal.ofBits .f32 0x00000000#32)

theorem addRowRelu_apply (A : FVec Ideal ⟨2, ![m, n]⟩ .f32) (B : FVec Ideal ⟨2, ![1, n]⟩ .f32) (a : Fin m) (b : Fin n) :
    addRowRelu A B (ix2 a b) = max (A (ix2 a b) + B (ix2 (0 : Fin 1) b)) (Ideal.ofBits .f32 0x00000000#32) := rfl

/-! ## The host's forms of the same functions -/

/-- The host's `dot_general` (contracting [1]×[0]) is the matrix product. -/
theorem dotGeneral_eq (w : DotDims.WF ⟨2, ![m, k]⟩ ⟨2, ![k, n]⟩ ⟨2, ![m, n]⟩ [1] [0] [0] [1] [] [])
    (prec : Option ContractPrecision) (X : FVec Ideal ⟨2, ![m, k]⟩ .f32) (W : FVec Ideal ⟨2, ![k, n]⟩ .f32) :
    Host.dotGeneral (⟨[1], [0], [0], [1], [], [], w⟩ : DotDims ⟨2, ![m, k]⟩ ⟨2, ![k, n]⟩ ⟨2, ![m, n]⟩) prec X W = matProd X W := by
  funext i
  obtain ⟨a, b, rfl⟩ : ∃ (a : Fin m) (b : Fin n), i = ix2 a b := ⟨i 0, i 1, eq_ix2 i⟩
  rw [matProd_apply]
  exact Cert.Lib.MatDot.dotGeneral_apply w prec X W a b

/-- The host's sum with a vector laid along every row (the vector made one row, the row laid down the rows) is `addRow` of
    the vector as a one-row matrix. -/
theorem add_rows_eq (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (A : FVec Ideal ⟨2, ![m, n]⟩ .f32) (x : FVec Ideal ⟨1, ![n]⟩ .f32) :
    addf A (broadcastInDim ⟨2, ![m, n]⟩ ![0, 1] h2 (broadcastInDim ⟨2, ![1, n]⟩ ![1] h1 x)) = addRow A (shapeCast ⟨2, ![1, n]⟩ x hc) := by
  funext i
  obtain ⟨a, b, rfl⟩ : ∃ (a : Fin m) (b : Fin n), i = ix2 a b := ⟨i 0, i 1, eq_ix2 i⟩
  rw [addRow_apply, addf_apply, Cert.Lib.MatDot.broadcastInDim_vec_rows_apply h1 h2 x a b, shapeCast_a_1a_apply x hc 0 b]

/-- The host's rectifier, `maximum` with the zero constant laid over the shape. -/
theorem relu_add_rows_eq (h1 : (⟨1, ![n]⟩ : Shape).BroadcastsInDim ⟨2, ![1, n]⟩ ![1])
    (h2 : (⟨2, ![1, n]⟩ : Shape).BroadcastsInDim ⟨2, ![m, n]⟩ ![0, 1]) (hc : (⟨1, ![n]⟩ : Shape).ShapeCasts ⟨2, ![1, n]⟩)
    (h0 : (⟨0, ![]⟩ : Shape).BroadcastsInDim ⟨2, ![m, n]⟩ ![])
    (A : FVec Ideal ⟨2, ![m, n]⟩ .f32) (x : FVec Ideal ⟨1, ![n]⟩ .f32) :
    maximumf (addf A (broadcastInDim ⟨2, ![m, n]⟩ ![0, 1] h2 (broadcastInDim ⟨2, ![1, n]⟩ ![1] h1 x)))
        (broadcastInDim ⟨2, ![m, n]⟩ ![] h0 (constant (F := Ideal) ⟨0, ![]⟩ .f32 0x00000000#32))
      = addRowRelu A (shapeCast ⟨2, ![1, n]⟩ x hc) := by
  rw [add_rows_eq h1 h2 hc]
  funext i
  show max _ (broadcastInDim ⟨2, ![m, n]⟩ ![] h0 (constant (F := Ideal) ⟨0, ![]⟩ .f32 0x00000000#32) i) = _
  rw [broadcastInDim_scalar_apply]
  rfl

end Cert.Dense

end
-- ==== Proof.LibRowTiles.lean ====
/-
  The dense steps of a layer computed a block of rows at a time (general in the extents, on the extended reals).

  A kernel that walks an M-row matrix in blocks of R rows sees, at the block starting at row o, the rows o … o+R-1 of
  the left operand and the whole right operand. What it computes for that block — the vector unit's matrix product into
  a zero accumulator; the bias row laid down the block, added, then the rectifier; the product plus the bias row — is,
  entry by entry, the rows o … o+R-1 of the same step taken on the whole matrix (`Cert.Dense.matProd`, `addRowRelu`,
  `addRow`): entry (a, b) of the block is entry (o + a, b) of the whole. The sums run over the same terms in the same
  order, so nothing about the arithmetic of the extended reals is used.
  (It imports this directory's copies of LibDenseRows.lean and LibMatDot.lean.)
-/
import proofs.«162949_j2602750181462_1_alg».proof.Proof.LibDenseRows

noncomputable section

open scoped BigOperators

namespace Cert.RowTiles

open Idealize.ShloMosaic Idealize.ShloMosaic.ValueIdx Cert.Dense

variable {M R k n : ℕ} {φ₁ φ₂ : FTy}

/-- Rows `o … o+R-1` of the product: the block of the left operand times the whole right operand. -/
theorem matmul_rows (w : DotDims.WF ⟨2, ![R, k]⟩ ⟨2, ![k, n]⟩ ⟨2, ![R, n]⟩ [1] [0] [0] [1] [] [])
    (prec : Option ContractPrecision) (X : FVec Ideal ⟨2, ![M, k]⟩ .f32) (W : FVec Ideal ⟨2, ![k, n]⟩ .f32)
    (x0 : FVec Ideal ⟨2, ![R, k]⟩ φ₁) (x1 : FVec Ideal ⟨2, ![k, n]⟩ φ₂) (o : ℕ) (ho : o + R ≤ M)
    (h0 : ∀ (a : Fin R) (c : Fin k), x0 (ix2 a c) = X (ix2 (⟨o + a.val, by have := a.isLt; omega⟩ : Fin M) c))
    (h1 : ∀ (c : Fin k) (b : Fin n), x1 (ix2 c b) = W (ix2 c b)) (a : Fin R) (b : Fin n) :
    matmul (⟨[1], [0], [0], [1], [], [], w⟩ : DotDims ⟨2, ![R, k]⟩ ⟨2, ![k, n]⟩ ⟨2, ![R, n]⟩) prec x0 x1
        (constant (F := Ideal) ⟨2, ![R, n]⟩ .f32 0x00000000#32) (ix2 a b)
      = matProd X W (ix2 (⟨o + a.val, by have := a.isLt; omega⟩ : Fin M) b) := by
  rw [Cert.Lib.MatDot.matmul_zero_apply w prec x0 x1 a b, matProd_apply]
  exact Finset.sum_congr rfl fun c _ => by rw [h0 a c, h1 c b]

/-- Rows `o … o+R-1` of "add the bias row, then the rectifier": the same on the block, the bias vector cast to one
    row and laid down the block's rows. -/
theorem addRowRelu_rows (A : FVec Ideal ⟨2, ![M, n]⟩ .f32) (bias : FVec Ideal ⟨1, ![n]⟩ .f32)
    (x0 : FVec Ideal ⟨2, ![R, n]⟩ .f32) (x1 : FVec Ideal ⟨1, ![n]⟩ .f32)
    (hs : (⟨2, ![R, n]⟩ : Shape).ShapeCasts ⟨2, ![R, n]⟩) (hc : (⟨1, ![n]⟩ : Shape).ShapeCasts ⟨2, ![1, n]⟩)
    (hb : (⟨2, ![1, n]⟩ : Shape).Broadcasts ⟨2, ![R, n]⟩) (o : ℕ) (ho : o + R ≤ M)
    (h0 : ∀ (a : Fin R) (b : Fin n), x0 (ix2 a b) = A (ix2 (⟨o + a.val, by have := a.isLt; omega⟩ : Fin M) b))
    (h1 : ∀ b : Fin n, x1 (ix1 b) = bias (ix1 b)) (a : Fin R) (b : Fin n) :
    maximumf (addf (shapeCast ⟨2, ![R, n]⟩ x0 hs) (broadcastTo ⟨2, ![R, n]⟩ (shapeCast ⟨2, ![1, n]⟩ x1 hc) hb))
        (broadcast ⟨2, ![R, n]⟩ (Scalar.ofBits (F := Ideal) .f32 0x00000000#32)) (ix2 a b)
      = addRowRelu A (shapeCast ⟨2, ![1, n]⟩ bias hc) (ix2 (⟨o + a.val, by have := a.isLt; omega⟩ : Fin M) b) := by
  rw [maximumf_apply, addf_apply, broadcast_apply, shapeCast_self,
    Cert.Lib.MatDot.broadcastTo_vec_rows_apply hc hb x1 a b, addRowRelu_apply, shapeCast_a_1a_apply bias hc 0 b, h0 a b, h1 b]
  rfl

/-- The product plus the bias row, on a block of rows: rows `o … o+R-1` of `addRow (matProd X W) bias`. -/
theorem matmul_addRow_rows (w : DotDims.WF ⟨2, ![R, k]⟩ ⟨2, ![k, n]⟩ ⟨2, ![R, n]⟩ [1] [0] [0] [1] [] [])
    (prec : Option ContractPrecision) (X : FVec Ideal ⟨2, ![M, k]⟩ .f32) (W : FVec Ideal ⟨2, ![k, n]⟩ .f32)
    (bias : FVec Ideal ⟨1, ![n]⟩ .f32)
    (x0 : FVec Ideal ⟨2, ![R, k]⟩ φ₁) (x1 : FVec Ideal ⟨2, ![k, n]⟩ φ₂) (x2 : FVec Ideal ⟨1, ![n]⟩ .f32)
    (hc : (⟨1, ![n]⟩ : Shape).ShapeCasts ⟨2, ![1, n]⟩) (hb : (⟨2, ![1, n]⟩ : Shape).Broadcasts ⟨2, ![R, n]⟩)
    (o : ℕ) (ho : o + R ≤ M)
    (h0 : ∀ (a : Fin R) (c : Fin k), x0 (ix2 a c) = X (ix2 (⟨o + a.val, by have := a.isLt; omega⟩ : Fin M) c))
    (h1 : ∀ (c : Fin k) (b : Fin n), x1 (ix2 c b) = W (ix2 c b))
    (h2 : ∀ b : Fin n, x2 (ix1 b) = bias (ix1 b)) (a : Fin R) (b : Fin n) :
    addf (matmul (⟨[1], [0], [0], [1], [], [], w⟩ : DotDims ⟨2, ![R, k]⟩ ⟨2, ![k, n]⟩ ⟨2, ![R, n]⟩) prec x0 x1
          (constant (F := Ideal) ⟨2, ![R, n]⟩ .f32 0x00000000#32))
        (broadcastTo ⟨2, ![R, n]⟩ (shapeCast ⟨2, ![1, n]⟩ x2 hc) hb) (ix2 a b)
      = addRow (matProd X W) (shapeCast ⟨2, ![1, n]⟩ bias hc) (ix2 (⟨o + a.val, by have := a.isLt; omega⟩ : Fin M) b) := by
  rw [addf_apply, matmul_rows w prec X W x0 x1 o ho h0 h1 a b,
    Cert.Lib.MatDot.broadcastTo_vec_rows_apply hc hb x2 a b, addRow_apply, shapeCast_a_1a_apply bias hc 0 b, h2 b]

end Cert.RowTiles

end
-- ==== Proof.LibLayerStages.lean ====
/-
  The two dense stages of one graph-convolution layer as functions of whole arrays, entry by entry, on the extended
  reals (general in the extents), and what a kernel that walks the rows a block at a time computes for one block.

    proj A X P Q b      entry (r, c) is  (∑ k, A (r, k) · P (k, c)  +  ∑ k, X (r, k) · Q (k, c))  +  b (0, c):
                        the aggregated rows times one weight matrix, the rows themselves times another, a bias row;
    normRelu H μ v g β  entry (r, c) is  max (((H (r, c) − μ (0, c)) · rsqrt (v (0, c) + ε)) · g (0, c) + β (0, c)) 0:
                        each column centred by μ, scaled by the reciprocal root of v + ε, then by g, shifted by β,
                        and rectified; μ, v, g, β are one-row matrices.

  A block of R rows starting at row o of either stage depends on rows o … o+R-1 of the row operands and on the whole
  of the small operands, and is, entry by entry, rows o … o+R-1 of the stage taken on the whole arrays: the sums run
  over the same terms in the same order, so no law of arithmetic is used.
  (It imports this directory's copies of LibRowTiles.lean, LibDenseRows.lean and LibMatDot.lean.)
-/
import proofs.«162949_j2602750181462_1_alg».proof.Proof.LibRowTiles

noncomputable section

open scoped BigOperators

namespace Cert.Layers

open Idealize.ShloMosaic Idealize.ShloMosaic.ValueIdx Cert.Dense

variable {M R k n : ℕ} {φ₁ φ₂ : FTy}

/-- The projection stage of a layer. -/
def proj (A X : FVec Ideal ⟨2, ![M, k]⟩ .f32) (P Q : FVec Ideal ⟨2, ![k, n]⟩ .f32) (b : FVec Ideal ⟨2, ![1, n]⟩ .f32) :
    FVec Ideal ⟨2, ![M, n]⟩ .f32 :=
  addRow (addf (matProd A P) (matProd X Q)) b

theorem proj_apply (A X : FVec Ideal ⟨2, ![M, k]⟩ .f32) (P Q : FVec Ideal ⟨2, ![k, n]⟩ .f32) (b : FVec Ideal ⟨2, ![1, n]⟩ .f32)
    (r : Fin M) (c : Fin n) :
    proj A X P Q b (ix2 r c) = (matProd A P (ix2 r c) + matProd X Q (ix2 r c)) + b (ix2 (0 : Fin 1) c) := rfl

/-- Rows o … o+R-1 of the projection stage: two products of row blocks into zero accumulators, added, plus the bias
    row laid down the block. -/
theorem proj_rows (w : DotDims.WF ⟨2, ![R, k]⟩ ⟨2, ![k, n]⟩ ⟨2, ![R, n]⟩ [1] [0] [0] [1] [] [])
    (prec : Option ContractPrecision) (A X : FVec Ideal ⟨2, ![M, k]⟩ .f32) (P Q : FVec Ideal ⟨2, ![k, n]⟩ .f32)
    (b : FVec Ideal ⟨2, ![1, n]⟩ .f32)
    (y0 y2 : FVec Ideal ⟨2, ![R, k]⟩ φ₁) (y1 y3 : FVec Ideal ⟨2, ![k, n]⟩ φ₂) (y4 : FVec Ideal ⟨2, ![1, n]⟩ .f32)
    (hb : (⟨2, ![1, n]⟩ : Shape).Broadcasts ⟨2, ![R, n]⟩) (o : ℕ) (ho : o + R ≤ M)
    (h0 : ∀ (a : Fin R) (c : Fin k), y0 (ix2 a c) = A (ix2 (⟨o + a.val, by have := a.isLt; omega⟩ : Fin M) c))
    (h1 : ∀ (c : Fin k) (d : Fin n), y1 (ix2 c d) = P (ix2 c d))
    (h2 : ∀ (a : Fin R) (c : Fin k), y2 (ix2 a c) = X (ix2 (⟨o + a.val, by have := a.isLt; omega⟩ : Fin M) c))
    (h3 : ∀ (c : Fin k) (d : Fin n), y3 (ix2 c d) = Q (ix2 c d))
    (h4 : ∀ d : Fin n, y4 (ix2 (0 : Fin 1) d) = b (ix2 (0 : Fin 1) d)) (a : Fin R) (d : Fin n) :
    addf (addf (matmul (⟨[1], [0], [0], [1], [], [], w⟩ : DotDims ⟨2, ![R, k]⟩ ⟨2, ![k, n]⟩ ⟨2, ![R, n]⟩) prec y0 y1
            (constant (F := Ideal) ⟨2, ![R, n]⟩ .f32 0x00000000#32))
          (matmul (⟨[1], [0], [0], [1], [], [], w⟩ : DotDims ⟨2, ![R, k]⟩ ⟨2, ![k, n]⟩ ⟨2, ![R, n]⟩) prec y2 y3
            (constant (F := Ideal) ⟨2, ![R, n]⟩ .f32 0x00000000#32)))
        (broadcastTo ⟨2, ![R, n]⟩ y4 hb) (ix2 a d)
      = proj A X P Q b (ix2 (⟨o + a.val, by have := a.isLt; omega⟩ : Fin M) d) := by
  rw [addf_apply, addf_apply, Cert.RowTiles.matmul_rows w prec A P y0 y1 o ho h0 h1 a d,
    Cert.RowTiles.matmul_rows w prec X Q y2 y3 o ho h2 h3 a d, broadcastTo_1b_ab_apply y4 hb a d, h4 d, proj_apply]

/-- The small positive constant added to the variance (the float word of 1e-5, read as its exact value). -/
abbrev eps : EReal := Ideal.ofBits .f32 0x3727C5AC#32

/-- The normalisation stage of a layer: centre, scale, shift, rectify; the column statistics and the affine
    parameters are one-row matrices. -/
def normRelu (H : FVec Ideal ⟨2, ![M, n]⟩ .f32) (mu v g be : FVec Ideal ⟨2, ![1, n]⟩ .f32) : FVec Ideal ⟨2, ![M, n]⟩ .f32 :=
  fun i => max ((((H i - mu (ix2 (0 : Fin 1) (⟨(i 1).val, idx2_lt1 i⟩ : Fin n)))
      * Ideal.rsqrt (v (ix2 (0 : Fin 1) (⟨(i 1).val, idx2_lt1 i⟩ : Fin n)) + eps))
      * g (ix2 (0 : Fin 1) (⟨(i 1).val, idx2_lt1 i⟩ : Fin n)))
      + be (ix2 (0 : Fin 1) (⟨(i 1).val, idx2_lt1 i⟩ : Fin n))) (Ideal.ofBits .f32 0x00000000#32)

theorem normRelu_apply (H : FVec Ideal ⟨2, ![M, n]⟩ .f32) (mu v g be : FVec Ideal ⟨2, ![1, n]⟩ .f32) (r : Fin M) (c : Fin n) :
    normRelu H mu v g be (ix2 r c)
      = max ((((H (ix2 r c) - mu (ix2 (0 : Fin 1) c)) * Ideal.rsqrt (v (ix2 (0 : Fin 1) c) + eps)) * g (ix2 (0 : Fin 1) c))
          + be (ix2 (0 : Fin 1) c)) (Ideal.ofBits .f32 0x00000000#32) := rfl

/-- Rows o … o+R-1 of the normalisation stage: the same operations on the block, each one-row operand laid down the
    block's rows. -/
theorem normRelu_rows (H : FVec Ideal ⟨2, ![M, n]⟩ .f32) (mu v g be : FVec Ideal ⟨2, ![1, n]⟩ .f32)
    (y0 : FVec Ideal ⟨2, ![R, n]⟩ .f32) (y1 y2 y3 y4 : FVec Ideal ⟨2, ![1, n]⟩ .f32)
    (hb : (⟨2, ![1, n]⟩ : Shape).Broadcasts ⟨2, ![R, n]⟩) (o : ℕ) (ho : o + R ≤ M)
    (h0 : ∀ (a : Fin R) (d : Fin n), y0 (ix2 a d) = H (ix2 (⟨o + a.val, by have := a.isLt; omega⟩ : Fin M) d))
    (h1 : ∀ d : Fin n, y1 (ix2 (0 : Fin 1) d) = mu (ix2 (0 : Fin 1) d))
    (h2 : ∀ d : Fin n, y2 (ix2 (0 : Fin 1) d) = v (ix2 (0 : Fin 1) d))
    (h3 : ∀ d : Fin n, y3 (ix2 (0 : Fin 1) d) = g (ix2 (0 : Fin 1) d))
    (h4 : ∀ d : Fin n, y4 (ix2 (0 : Fin 1) d) = be (ix2 (0 : Fin 1) d)) (a : Fin R) (d : Fin n) :
    maximumf (addf (mulf (mulf (subf y0 (broadcastTo ⟨2, ![R, n]⟩ y1 hb))
          (broadcastTo ⟨2, ![R, n]⟩ (rsqrt (addf y2 (broadcast ⟨2, ![1, n]⟩ (Scalar.ofBits (F := Ideal) .f32 0x3727C5AC#32)))) hb))
          (broadcastTo ⟨2, ![R, n]⟩ y3 hb)) (broadcastTo ⟨2, ![R, n]⟩ y4 hb))
        (broadcast ⟨2, ![R, n]⟩ (Scalar.ofBits (F := Ideal) .f32 0x00000000#32)) (ix2 a d)
      = normRelu H mu v g be (ix2 (⟨o + a.val, by have := a.isLt; omega⟩ : Fin M) d) := by
  rw [maximumf_apply, addf_apply, mulf_apply, mulf_apply, subf_apply, broadcast_apply,
    broadcastTo_1b_ab_apply y1 hb a d, broadcastTo_1b_ab_apply _ hb a d, broadcastTo_1b_ab_apply y3 hb a d,
    broadcastTo_1b_ab_apply y4 hb a d, normRelu_apply, h0 a d, h1 d, h3 d, h4 d, ← h2 d]
  rfl

end Cert.Layers

end
-- ==== Proof.Region0.lean ====
/-
  Region 0: the projection stage of a layer, walked ten blocks of 5000 rows at a time. At grid point t the body reads
  rows 5000·t … 5000·t+4999 of the aggregated features and of the node features, the two 128×256 weight matrices whole
  and the one-row bias, and writes rows 5000·t … 5000·t+4999 of the result. Entry by entry that block is the same rows
  of `Layers.proj` taken on the whole arrays, and the ten blocks tile the result, so the result array ends holding
  `Layers.proj` of the arrays the region found.
-/
import proofs.«162949_j2602750181462_1_alg».proof.Proof.Gen.KernelIdeal.Frame
import proofs.«162949_j2602750181462_1_alg».proof.Proof.LibLayerStages
import Idealize.ShloMosaic.Lib.Pipeline.Value
import Idealize.ShloMosaic.Lib.Tactic

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.StableHlo Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem zero_off0 : (![0, 0] : Fin 2 → Nat) = fun _ => 0 := funext fun a => by fin_cases a <;> rfl

/-- The block index maps over the grid: the row operands and the result move with the grid point along the rows, the
    small operands stay at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt_ten0 (t : Fin cfg0.N) : t.val < 10 := by
  have h : t.val < cfg0.N := t.isLt
  have e : cfg0.N = 10 := N_0
  omega

/-- The body's stored value at an entry of the block is the projection stage at the entry `o` rows further down, when
    the row blocks hold rows `o …` of the row operands and the small blocks the small operands. -/
theorem pay0_at (A X : FVec Ideal S50000x128 .f32) (P Q : FVec Ideal S128x256 .f32) (b : FVec Ideal S1x256 .f32)
    (x0 x1 : Vec Ideal S5000x128 .f32) (x2 x3 : Vec Ideal S128x256 .f32) (x4 : Vec Ideal S1x256 .f32) (o : ℕ) (ho : o + 5000 ≤ 50000)
    (h0 : ∀ (a : Fin 5000) (e : Fin 128), x0 (ix2 a e) = A (ix2 (⟨o + a.val, by have := a.isLt; omega⟩ : Fin 50000) e))
    (h1 : ∀ (a : Fin 5000) (e : Fin 128), x1 (ix2 a e) = X (ix2 (⟨o + a.val, by have := a.isLt; omega⟩ : Fin 50000) e))
    (h2 : ∀ (e : Fin 128) (d : Fin 256), x2 (ix2 e d) = P (ix2 e d))
    (h3 : ∀ (e : Fin 128) (d : Fin 256), x3 (ix2 e d) = Q (ix2 e d))
    (h4 : ∀ d : Fin 256, x4 (ix2 (0 : Fin 1) d) = b (ix2 (0 : Fin 1) d))
    (j : S5000x256.Idx) (i : S50000x256.Idx) (hi0 : (i 0).val = o + (j 0).val) (hi1 : (i 1).val = (j 1).val) :
    k0_pay1 x0 x1 x2 x3 x4 j = proj A X P Q b i := by
  obtain ⟨a, d, rfl⟩ : ∃ (a : Fin 5000) (d : Fin 256), j = ix2 a d := ⟨j 0, j 1, eq_ix2 j⟩
  have hi : i = ix2 (⟨o + a.val, by have := a.isLt; omega⟩ : Fin 50000) d := by
    funext ax; apply Fin.ext
    match ax with
    | ⟨0, _⟩ => exact hi0
    | ⟨1, _⟩ => exact hi1
  rw [hi]
  unfold k0_pay1
  simp only [shapeCast_self]
  exact proj_rows _ none A X P Q b _ _ _ _ x4 _ o ho h0 h2 h1 h3 h4 a d

/-- A row operand's block at point `t` is rows 5000·t … of its array. -/
theorem rows0_0 (c : Dev nD) (t : Fin cfg0.N) (a : Fin 5000) (e : Fin 128) :
    (iblk0 V c 0 t : Vec Ideal S5000x128 .f32) (ix2 a e)
      = (V c main_v16 : S50000x128.Idx → EReal) (ix2 (⟨t.val * 5000 + a.val, by have := a.isLt; have := lt_ten0 t; omega⟩ : Fin 50000) e) := by
  obtain ⟨e0, e1, -⟩ := idx0 t
  unfold iblk0
  rw [View.read_apply]
  show V c main_v16 _ = V c main_v16 _
  congr 1
  funext ax; apply Fin.ext
  match ax with
  | ⟨0, _⟩ => show win0_0.index t (0 : Fin 2) * 5000 + 1 * a.val = t.val * 5000 + a.val; rw [e0]; omega
  | ⟨1, _⟩ => show win0_0.index t (1 : Fin 2) * 128 + 1 * e.val = e.val; rw [e1]; omega

theorem rows0_1 (c : Dev nD) (t : Fin cfg0.N) (a : Fin 5000) (e : Fin 128) :
    (iblk0 V c 1 t : Vec Ideal S5000x128 .f32) (ix2 a e)
      = (V c main_arg0 : S50000x128.Idx → EReal) (ix2 (⟨t.val * 5000 + a.val, by have := a.isLt; have := lt_ten0 t; omega⟩ : Fin 50000) e) := by
  obtain ⟨-, -, e0, e1, -⟩ := idx0 t
  unfold iblk0
  rw [View.read_apply]
  show V c main_arg0 _ = V c main_arg0 _
  congr 1
  funext ax; apply Fin.ext
  match ax with
  | ⟨0, _⟩ => show win0_1.index t (0 : Fin 2) * 5000 + 1 * a.val = t.val * 5000 + a.val; rw [e0]; omega
  | ⟨1, _⟩ => show win0_1.index t (1 : Fin 2) * 128 + 1 * e.val = e.val; rw [e1]; omega

/-- A small operand's block at any point is the whole of its array. -/
theorem whole0_2 (c : Dev nD) (t : Fin cfg0.N) (e : Fin 128) (d : Fin 256) :
    (iblk0 V c 2 t : Vec Ideal S128x256 .f32) (ix2 e d) = (V c main_v17 : S128x256.Idx → EReal) (ix2 e d) := by
  obtain ⟨-, -, -, -, e0, e1, -⟩ := idx0 t
  unfold iblk0
  rw [View.read_apply]
  show V c main_v17 _ = V c main_v17 _
  congr 1
  funext ax; apply Fin.ext
  match ax with
  | ⟨0, _⟩ => show win0_2.index t (0 : Fin 2) * 128 + 1 * e.val = e.val; rw [e0]; omega
  | ⟨1, _⟩ => show win0_2.index t (1 : Fin 2) * 256 + 1 * d.val = d.val; rw [e1]; omega

theorem whole0_3 (c : Dev nD) (t : Fin cfg0.N) (e : Fin 128) (d : Fin 256) :
    (iblk0 V c 3 t : Vec Ideal S128x256 .f32) (ix2 e d) = (V c main_v18 : S128x256.Idx → EReal) (ix2 e d) := by
  obtain ⟨-, -, -, -, -, -, e0, e1, -⟩ := idx0 t
  unfold iblk0
  rw [View.read_apply]
  show V c main_v18 _ = V c main_v18 _
  congr 1
  funext ax; apply Fin.ext
  match ax with
  | ⟨0, _⟩ => show win0_3.index t (0 : Fin 2) * 128 + 1 * e.val = e.val; rw [e0]; omega
  | ⟨1, _⟩ => show win0_3.index t (1 : Fin 2) * 256 + 1 * d.val = d.val; rw [e1]; omega

theorem whole0_4 (c : Dev nD) (t : Fin cfg0.N) (d : Fin 256) :
    (iblk0 V c 4 t : Vec Ideal S1x256 .f32) (ix2 (0 : Fin 1) d) = (V c main_v19 : S1x256.Idx → EReal) (ix2 (0 : Fin 1) d) := by
  obtain ⟨-, -, -, -, -, -, -, -, e0, e1, -⟩ := idx0 t
  unfold iblk0
  rw [View.read_apply]
  show V c main_v19 _ = V c main_v19 _
  congr 1
  funext ax; apply Fin.ext
  match ax with
  | ⟨0, _⟩ => show win0_4.index t (0 : Fin 2) * 1 + 1 * 0 = 0; rw [e0]
  | ⟨1, _⟩ => show win0_4.index t (1 : Fin 2) * 256 + 1 * d.val = d.val; rw [e1]; omega

/-- What point `t` writes back is block `t` of the projection stage of the arrays the region found. -/
theorem flushed0 (c : Dev nD) (t : Fin cfg0.N) :
    (dat0 V c).flushed 5 t = ((cfg0.win 5).blk t).view.read (Elt Ideal)
      (proj (V c main_v16) (V c main_arg0) (V c main_v17) (V c main_v18) (V c main_v19)) := by
  have ht := lt_ten0 t
  obtain ⟨-, -, -, -, -, -, -, -, -, -, e0, e1⟩ := idx0 t
  show (cfg0.win 5).cut (grid0.coords t) ((dat0 V c).after 5 t) = _
  rw [after0_5]
  unfold out0_5
  rw [View.canon_unit_zero zero_off0]
  simp only [View.ld_unit_zero (S := S5000x128) zero_off0, View.ld_unit_zero (S := S128x256) zero_off0, View.ld_unit_zero (S := S1x256) zero_off0]
  funext j
  rw [View.read_apply]
  refine pay0_at (V c main_v16) (V c main_arg0) (V c main_v17) (V c main_v18) (V c main_v19)
    (iblk0 V c 0 t) (iblk0 V c 1 t) (iblk0 V c 2 t) (iblk0 V c 3 t) (iblk0 V c 4 t) (t.val * 5000) (by omega)
    (rows0_0 V c t) (rows0_1 V c t) (whole0_2 V c t) (whole0_3 V c t) (whole0_4 V c t) j _ ?_ ?_
  · show win0_5.index t (0 : Fin 2) * 5000 + 1 * (j 0).val = t.val * 5000 + (j 0).val
    rw [e0]; omega
  · show win0_5.index t (1 : Fin 2) * 256 + 1 * (j 1).val = (j 1).val
    rw [e1]; omega

/-- An index of the result array lies in point `t`'s block when each coordinate lies in the block's range. -/
theorem mem_blk0 (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v20).slice (win0_5.rect t)).set ↔ _
  rw [View.set_slice_whole, Rect.mem_set_unit]
  exact Iff.rfl

/-- The result array after the region: the projection stage of the arrays the region found (row r lies in the block
    of point r / 5000). -/
theorem final0 (c : Dev nD) :
    (dat0 V c).arrAt 5 cfg0.N = proj (V c main_v16) (V c main_arg0) (V c main_v17) (V c main_v18) (V c main_v19) :=
  (dat0 V c).arrAt_eq_of_cover 5 _ (fun t _ => flushed0 V c t) fun i => by
    have h0 : (i 0).val < 50000 := (i 0).isLt
    have h1 : (i 1).val < 256 := (i 1).isLt
    have hN : (i 0).val / 5000 < cfg0.N := by rw [show cfg0.N = 10 from N_0]; omega
    obtain ⟨-, -, -, -, -, -, -, -, -, -, e0, e1⟩ := idx0 ⟨(i 0).val / 5000, hN⟩
    refine ⟨⟨(i 0).val / 5000, hN⟩, flush0_5 _, ?_⟩
    rw [mem_blk0]
    intro a
    match a with
    | ⟨0, _⟩ =>
      show win0_5.index ⟨(i 0).val / 5000, hN⟩ (0 : Fin 2) * 5000 ≤ (i 0).val ∧ (i 0).val < win0_5.index ⟨(i 0).val / 5000, hN⟩ (0 : Fin 2) * 5000 + 5000
      rw [e0]; show (i 0).val / 5000 * 5000 ≤ (i 0).val ∧ (i 0).val < (i 0).val / 5000 * 5000 + 5000; omega
    | ⟨1, _⟩ =>
      show win0_5.index ⟨(i 0).val / 5000, hN⟩ (1 : Fin 2) * 256 ≤ (i 1).val ∧ (i 1).val < win0_5.index ⟨(i 0).val / 5000, hN⟩ (1 : Fin 2) * 256 + 256
      rw [e1]; omega

end Cert.KernelIdeal.Hand

end
-- ==== Proof.Region1.lean ====
/-
  Region 1: the normalisation stage of a layer, walked ten blocks of 5000 rows at a time. At grid point t the body reads
  rows 5000·t … 5000·t+4999 of the activations and the four one-row operands (column means, column variances, scale,
  shift) whole, and writes the same rows of the result. Entry by entry that block is the same rows of
  `Layers.normRelu` taken on the whole arrays, and the ten blocks tile the result.
-/
import proofs.«162949_j2602750181462_1_alg».proof.Proof.Gen.KernelIdeal.Frame
import proofs.«162949_j2602750181462_1_alg».proof.Proof.LibLayerStages
import Idealize.ShloMosaic.Lib.Pipeline.Value
import Idealize.ShloMosaic.Lib.Tactic

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.StableHlo Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The block index maps over the grid: the activations and the result move with the grid point along the rows, the
    one-row operands stay at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt_ten1 (t : Fin cfg1.N) : t.val < 10 := by
  have h : t.val < cfg1.N := t.isLt
  have e : cfg1.N = 10 := N_1
  omega

/-- The body's stored value at an entry of the block is the normalisation stage at the entry `o` rows further down. -/
theorem pay1_at (H : FVec Ideal S50000x256 .f32) (mu v g be : FVec Ideal S1x256 .f32)
    (x0 : Vec Ideal S5000x256 .f32) (xv xm xg xb : Vec Ideal S1x256 .f32) (o : ℕ) (ho : o + 5000 ≤ 50000)
    (h0 : ∀ (a : Fin 5000) (d : Fin 256), x0 (ix2 a d) = H (ix2 (⟨o + a.val, by have := a.isLt; omega⟩ : Fin 50000) d))
    (h1 : ∀ d : Fin 256, xm (ix2 (0 : Fin 1) d) = mu (ix2 (0 : Fin 1) d))
    (h2 : ∀ d : Fin 256, xv (ix2 (0 : Fin 1) d) = v (ix2 (0 : Fin 1) d))
    (h3 : ∀ d : Fin 256, xg (ix2 (0 : Fin 1) d) = g (ix2 (0 : Fin 1) d))
    (h4 : ∀ d : Fin 256, xb (ix2 (0 : Fin 1) d) = be (ix2 (0 : Fin 1) d))
    (j : S5000x256.Idx) (i : S50000x256.Idx) (hi0 : (i 0).val = o + (j 0).val) (hi1 : (i 1).val = (j 1).val) :
    k1_pay1 x0 xv xm xg xb j = normRelu H mu v g be i := by
  obtain ⟨a, d, rfl⟩ : ∃ (a : Fin 5000) (d : Fin 256), j = ix2 a d := ⟨j 0, j 1, eq_ix2 j⟩
  have hi : i = ix2 (⟨o + a.val, by have := a.isLt; omega⟩ : Fin 50000) d := by
    funext ax; apply Fin.ext
    match ax with
    | ⟨0, _⟩ => exact hi0
    | ⟨1, _⟩ => exact hi1
  rw [hi]
  unfold k1_pay1
  simp only [shapeCast_self]
  exact normRelu_rows H mu v g be x0 xm xv xg xb _ o ho h0 h1 h2 h3 h4 a d

/-- The activations' block at point `t` is rows 5000·t … of the array. -/
theorem rows1_0 (c : Dev nD) (t : Fin cfg1.N) (a : Fin 5000) (d : Fin 256) :
    (iblk1 V c 0 t : Vec Ideal S5000x256 .f32) (ix2 a d)
      = (V c main_v20 : S50000x256.Idx → EReal) (ix2 (⟨t.val * 5000 + a.val, by have := a.isLt; have := lt_ten1 t; omega⟩ : Fin 50000) d) := by
  obtain ⟨e0, e1, -⟩ := idx1 t
  unfold iblk1
  rw [View.read_apply]
  show V c main_v20 _ = V c main_v20 _
  congr 1
  funext ax; apply Fin.ext
  match ax with
  | ⟨0, _⟩ => show win1_0.index t (0 : Fin 2) * 5000 + 1 * a.val = t.val * 5000 + a.val; rw [e0]; omega
  | ⟨1, _⟩ => show win1_0.index t (1 : Fin 2) * 256 + 1 * d.val = d.val; rw [e1]; omega

/-- A one-row operand's block at any point is the whole of its array. -/
theorem whole1_1 (c : Dev nD) (t : Fin cfg1.N) (d : Fin 256) :
    (iblk1 V c 1 t : Vec Ideal S1x256 .f32) (ix2 (0 : Fin 1) d) = (V c main_v24 : S1x256.Idx → EReal) (ix2 (0 : Fin 1) d) := by
  obtain ⟨-, -, e0, e1, -⟩ := idx1 t
  unfold iblk1
  rw [View.read_apply]
  show V c main_v24 _ = V c main_v24 _
  congr 1
  funext ax; apply Fin.ext
  match ax with
  | ⟨0, _⟩ => show win1_1.index t (0 : Fin 2) * 1 + 1 * 0 = 0; rw [e0]
  | ⟨1, _⟩ => show win1_1.index t (1 : Fin 2) * 256 + 1 * d.val = d.val; rw [e1]; omega

theorem whole1_2 (c : Dev nD) (t : Fin cfg1.N) (d : Fin 256) :
    (iblk1 V c 2 t : Vec Ideal S1x256 .f32) (ix2 (0 : Fin 1) d) = (V c main_v31 : S1x256.Idx → EReal) (ix2 (0 : Fin 1) d) := by
  obtain ⟨-, -, -, -, e0, e1, -⟩ := idx1 t
  unfold iblk1
  rw [View.read_apply]
  show V c main_v31 _ = V c main_v31 _
  congr 1
  funext ax; apply Fin.ext
  match ax with
  | ⟨0, _⟩ => show win1_2.index t (0 : Fin 2) * 1 + 1 * 0 = 0; rw [e0]
  | ⟨1, _⟩ => show win1_2.index t (1 : Fin 2) * 256 + 1 * d.val = d.val; rw [e1]; omega

theorem whole1_3 (c : Dev nD) (t : Fin cfg1.N) (d : Fin 256) :
    (iblk1 V c 3 t : Vec Ideal S1x256 .f32) (ix2 (0 : Fin 1) d) = (V c main_v32 : S1x256.Idx → EReal) (ix2 (0 : Fin 1) d) := by
  obtain ⟨-, -, -, -, -, -, e0, e1, -⟩ := idx1 t
  unfold iblk1
  rw [View.read_apply]
  show V c main_v32 _ = V c main_v32 _
  congr 1
  funext ax; apply Fin.ext
  match ax with
  | ⟨0, _⟩ => show win1_3.index t (0 : Fin 2) * 1 + 1 * 0 = 0; rw [e0]
  | ⟨1, _⟩ => show win1_3.index t (1 : Fin 2) * 256 + 1 * d.val = d.val; rw [e1]; omega

theorem whole1_4 (c : Dev nD) (t : Fin cfg1.N) (d : Fin 256) :
    (iblk1 V c 4 t : Vec Ideal S1x256 .f32) (ix2 (0 : Fin 1) d) = (V c main_v33 : S1x256.Idx → EReal) (ix2 (0 : Fin 1) d) := by
  obtain ⟨-, -, -, -, -, -, -, -, e0, e1, -⟩ := idx1 t
  unfold iblk1
  rw [View.read_apply]
  show V c main_v33 _ = V c main_v33 _
  congr 1
  funext ax; apply Fin.ext
  match ax with
  | ⟨0, _⟩ => show win1_4.index t (0 : Fin 2) * 1 + 1 * 0 = 0; rw [e0]
  | ⟨1, _⟩ => show win1_4.index t (1 : Fin 2) * 256 + 1 * d.val = d.val; rw [e1]; omega

/-- What point `t` writes back is block `t` of the normalisation stage of the arrays the region found. -/
theorem flushed1 (c : Dev nD) (t : Fin cfg1.N) :
    (dat1 V c).flushed 5 t = ((cfg1.win 5).blk t).view.read (Elt Ideal)
      (normRelu (V c main_v20) (V c main_v24) (V c main_v31) (V c main_v32) (V c main_v33)) := by
  have ht := lt_ten1 t
  obtain ⟨-, -, -, -, -, -, -, -, -, -, e0, e1⟩ := idx1 t
  show (cfg1.win 5).cut (grid1.coords t) ((dat1 V c).after 5 t) = _
  rw [after1_5]
  unfold out1_5
  rw [View.canon_unit_zero zero_off1]
  simp only [View.ld_unit_zero (S := S5000x256) zero_off1, View.ld_unit_zero (S := S1x256) zero_off1]
  funext j
  rw [View.read_apply]
  refine pay1_at (V c main_v20) (V c main_v24) (V c main_v31) (V c main_v32) (V c main_v33)
    (iblk1 V c 0 t) (iblk1 V c 2 t) (iblk1 V c 1 t) (iblk1 V c 3 t) (iblk1 V c 4 t) (t.val * 5000) (by omega)
    (rows1_0 V c t) (whole1_1 V c t) (whole1_2 V c t) (whole1_3 V c t) (whole1_4 V c t) j _ ?_ ?_
  · show win1_5.index t (0 : Fin 2) * 5000 + 1 * (j 0).val = t.val * 5000 + (j 0).val
    rw [e0]; omega
  · show win1_5.index t (1 : Fin 2) * 256 + 1 * (j 1).val = (j 1).val
    rw [e1]; omega

/-- An index of the result array lies in point `t`'s block when each coordinate lies in the block's range. -/
theorem mem_blk1 (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v34).slice (win1_5.rect t)).set ↔ _
  rw [View.set_slice_whole, Rect.mem_set_unit]
  exact Iff.rfl

/-- The result array after the region: the normalisation stage of the arrays the region found. -/
theorem final1 (c : Dev nD) :
    (dat1 V c).arrAt 5 cfg1.N = normRelu (V c main_v20) (V c main_v24) (V c main_v31) (V c main_v32) (V c main_v33) :=
  (dat1 V c).arrAt_eq_of_cover 5 _ (fun t _ => flushed1 V c t) fun i => by
    have h0 : (i 0).val < 50000 := (i 0).isLt
    have h1 : (i 1).val < 256 := (i 1).isLt
    have hN : (i 0).val / 5000 < cfg1.N := by rw [show cfg1.N = 10 from N_1]; omega
    obtain ⟨-, -, -, -, -, -, -, -, -, -, e0, e1⟩ := idx1 ⟨(i 0).val / 5000, hN⟩
    refine ⟨⟨(i 0).val / 5000, hN⟩, flush1_5 _, ?_⟩
    rw [mem_blk1]
    intro a
    match a with
    | ⟨0, _⟩ =>
      show win1_5.index ⟨(i 0).val / 5000, hN⟩ (0 : Fin 2) * 5000 ≤ (i 0).val ∧ (i 0).val < win1_5.index ⟨(i 0).val / 5000, hN⟩ (0 : Fin 2) * 5000 + 5000
      rw [e0]; show (i 0).val / 5000 * 5000 ≤ (i 0).val ∧ (i 0).val < (i 0).val / 5000 * 5000 + 5000; omega
    | ⟨1, _⟩ =>
      show win1_5.index ⟨(i 0).val / 5000, hN⟩ (1 : Fin 2) * 256 ≤ (i 1).val ∧ (i 1).val < win1_5.index ⟨(i 0).val / 5000, hN⟩ (1 : Fin 2) * 256 + 256
      rw [e1]; omega

end Cert.KernelIdeal.Hand

end
-- ==== Proof.Region2.lean ====
/-
  Region 2: the projection stage of a layer, walked ten blocks of 5000 rows at a time. At grid point t the body reads
  rows 5000·t … 5000·t+4999 of the aggregated features and of the node features, the two 256×256 weight matrices whole
  and the one-row bias, and writes rows 5000·t … 5000·t+4999 of the result. Entry by entry that block is the same rows
  of `Layers.proj` taken on the whole arrays, and the ten blocks tile the result, so the result array ends holding
  `Layers.proj` of the arrays the region found.
-/
import proofs.«162949_j2602750181462_1_alg».proof.Proof.Gen.KernelIdeal.Frame
import proofs.«162949_j2602750181462_1_alg».proof.Proof.LibLayerStages
import Idealize.ShloMosaic.Lib.Pipeline.Value
import Idealize.ShloMosaic.Lib.Tactic

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.StableHlo Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl

/-- The block index maps over the grid: the row operands and the result move with the grid point along the rows, the
    small operands stay at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt_ten2 (t : Fin cfg2.N) : t.val < 10 := by
  have h : t.val < cfg2.N := t.isLt
  have e : cfg2.N = 10 := N_2
  omega

/-- The body's stored value at an entry of the block is the projection stage at the entry `o` rows further down, when
    the row blocks hold rows `o …` of the row operands and the small blocks the small operands. -/
theorem pay2_at (A X : FVec Ideal S50000x256 .f32) (P Q : FVec Ideal S256x256 .f32) (b : FVec Ideal S1x256 .f32)
    (x0 x1 : Vec Ideal S5000x256 .f32) (x2 x3 : Vec Ideal S256x256 .f32) (x4 : Vec Ideal S1x256 .f32) (o : ℕ) (ho : o + 5000 ≤ 50000)
    (h0 : ∀ (a : Fin 5000) (e : Fin 256), x0 (ix2 a e) = A (ix2 (⟨o + a.val, by have := a.isLt; omega⟩ : Fin 50000) e))
    (h1 : ∀ (a : Fin 5000) (e : Fin 256), x1 (ix2 a e) = X (ix2 (⟨o + a.val, by have := a.isLt; omega⟩ : Fin 50000) e))
    (h2 : ∀ (e : Fin 256) (d : Fin 256), x2 (ix2 e d) = P (ix2 e d))
    (h3 : ∀ (e : Fin 256) (d : Fin 256), x3 (ix2 e d) = Q (ix2 e d))
    (h4 : ∀ d : Fin 256, x4 (ix2 (0 : Fin 1) d) = b (ix2 (0 : Fin 1) d))
    (j : S5000x256.Idx) (i : S50000x256.Idx) (hi0 : (i 0).val = o + (j 0).val) (hi1 : (i 1).val = (j 1).val) :
    k2_pay1 x0 x1 x2 x3 x4 j = proj A X P Q b i := by
  obtain ⟨a, d, rfl⟩ : ∃ (a : Fin 5000) (d : Fin 256), j = ix2 a d := ⟨j 0, j 1, eq_ix2 j⟩
  have hi : i = ix2 (⟨o + a.val, by have := a.isLt; omega⟩ : Fin 50000) d := by
    funext ax; apply Fin.ext
    match ax with
    | ⟨0, _⟩ => exact hi0
    | ⟨1, _⟩ => exact hi1
  rw [hi]
  unfold k2_pay1
  simp only [shapeCast_self]
  exact proj_rows _ none A X P Q b _ _ _ _ x4 _ o ho h0 h2 h1 h3 h4 a d

/-- A row operand's block at point `t` is rows 5000·t … of its array. -/
theorem rows2_0 (c : Dev nD) (t : Fin cfg2.N) (a : Fin 5000) (e : Fin 256) :
    (iblk2 V c 0 t : Vec Ideal S5000x256 .f32) (ix2 a e)
      = (V c main_v47 : S50000x256.Idx → EReal) (ix2 (⟨t.val * 5000 + a.val, by have := a.isLt; have := lt_ten2 t; omega⟩ : Fin 50000) e) := by
  obtain ⟨e0, e1, -⟩ := idx2 t
  unfold iblk2
  rw [View.read_apply]
  show V c main_v47 _ = V c main_v47 _
  congr 1
  funext ax; apply Fin.ext
  match ax with
  | ⟨0, _⟩ => show win2_0.index t (0 : Fin 2) * 5000 + 1 * a.val = t.val * 5000 + a.val; rw [e0]; omega
  | ⟨1, _⟩ => show win2_0.index t (1 : Fin 2) * 256 + 1 * e.val = e.val; rw [e1]; omega

theorem rows2_1 (c : Dev nD) (t : Fin cfg2.N) (a : Fin 5000) (e : Fin 256) :
    (iblk2 V c 1 t : Vec Ideal S5000x256 .f32) (ix2 a e)
      = (V c main_v34 : S50000x256.Idx → EReal) (ix2 (⟨t.val * 5000 + a.val, by have := a.isLt; have := lt_ten2 t; omega⟩ : Fin 50000) e) := by
  obtain ⟨-, -, e0, e1, -⟩ := idx2 t
  unfold iblk2
  rw [View.read_apply]
  show V c main_v34 _ = V c main_v34 _
  congr 1
  funext ax; apply Fin.ext
  match ax with
  | ⟨0, _⟩ => show win2_1.index t (0 : Fin 2) * 5000 + 1 * a.val = t.val * 5000 + a.val; rw [e0]; omega
  | ⟨1, _⟩ => show win2_1.index t (1 : Fin 2) * 256 + 1 * e.val = e.val; rw [e1]; omega

/-- A small operand's block at any point is the whole of its array. -/
theorem whole2_2 (c : Dev nD) (t : Fin cfg2.N) (e : Fin 256) (d : Fin 256) :
    (iblk2 V c 2 t : Vec Ideal S256x256 .f32) (ix2 e d) = (V c main_v48 : S256x256.Idx → EReal) (ix2 e d) := by
  obtain ⟨-, -, -, -, e0, e1, -⟩ := idx2 t
  unfold iblk2
  rw [View.read_apply]
  show V c main_v48 _ = V c main_v48 _
  congr 1
  funext ax; apply Fin.ext
  match ax with
  | ⟨0, _⟩ => show win2_2.index t (0 : Fin 2) * 256 + 1 * e.val = e.val; rw [e0]; omega
  | ⟨1, _⟩ => show win2_2.index t (1 : Fin 2) * 256 + 1 * d.val = d.val; rw [e1]; omega

theorem whole2_3 (c : Dev nD) (t : Fin cfg2.N) (e : Fin 256) (d : Fin 256) :
    (iblk2 V c 3 t : Vec Ideal S256x256 .f32) (ix2 e d) = (V c main_v49 : S256x256.Idx → EReal) (ix2 e d) := by
  obtain ⟨-, -, -, -, -, -, e0, e1, -⟩ := idx2 t
  unfold iblk2
  rw [View.read_apply]
  show V c main_v49 _ = V c main_v49 _
  congr 1
  funext ax; apply Fin.ext
  match ax with
  | ⟨0, _⟩ => show win2_3.index t (0 : Fin 2) * 256 + 1 * e.val = e.val; rw [e0]; omega
  | ⟨1, _⟩ => show win2_3.index t (1 : Fin 2) * 256 + 1 * d.val = d.val; rw [e1]; omega

theorem whole2_4 (c : Dev nD) (t : Fin cfg2.N) (d : Fin 256) :
    (iblk2 V c 4 t : Vec Ideal S1x256 .f32) (ix2 (0 : Fin 1) d) = (V c main_v50 : S1x256.Idx → EReal) (ix2 (0 : Fin 1) d) := by
  obtain ⟨-, -, -, -, -, -, -, -, e0, e1, -⟩ := idx2 t
  unfold iblk2
  rw [View.read_apply]
  show V c main_v50 _ = V c main_v50 _
  congr 1
  funext ax; apply Fin.ext
  match ax with
  | ⟨0, _⟩ => show win2_4.index t (0 : Fin 2) * 1 + 1 * 0 = 0; rw [e0]
  | ⟨1, _⟩ => show win2_4.index t (1 : Fin 2) * 256 + 1 * d.val = d.val; rw [e1]; omega

/-- What point `t` writes back is block `t` of the projection stage of the arrays the region found. -/
theorem flushed2 (c : Dev nD) (t : Fin cfg2.N) :
    (dat2 V c).flushed 5 t = ((cfg2.win 5).blk t).view.read (Elt Ideal)
      (proj (V c main_v47) (V c main_v34) (V c main_v48) (V c main_v49) (V c main_v50)) := by
  have ht := lt_ten2 t
  obtain ⟨-, -, -, -, -, -, -, -, -, -, e0, e1⟩ := idx2 t
  show (cfg2.win 5).cut (grid2.coords t) ((dat2 V c).after 5 t) = _
  rw [after2_5]
  unfold out2_5
  rw [View.canon_unit_zero zero_off2]
  simp only [View.ld_unit_zero (S := S5000x256) zero_off2, View.ld_unit_zero (S := S256x256) zero_off2, View.ld_unit_zero (S := S1x256) zero_off2]
  funext j
  rw [View.read_apply]
  refine pay2_at (V c main_v47) (V c main_v34) (V c main_v48) (V c main_v49) (V c main_v50)
    (iblk2 V c 0 t) (iblk2 V c 1 t) (iblk2 V c 2 t) (iblk2 V c 3 t) (iblk2 V c 4 t) (t.val * 5000) (by omega)
    (rows2_0 V c t) (rows2_1 V c t) (whole2_2 V c t) (whole2_3 V c t) (whole2_4 V c t) j _ ?_ ?_
  · show win2_5.index t (0 : Fin 2) * 5000 + 1 * (j 0).val = t.val * 5000 + (j 0).val
    rw [e0]; omega
  · show win2_5.index t (1 : Fin 2) * 256 + 1 * (j 1).val = (j 1).val
    rw [e1]; omega

/-- An index of the result array lies in point `t`'s block when each coordinate lies in the block's range. -/
theorem mem_blk2 (t : Fin cfg2.N) (i : S50000x256.Idx) :
    i ∈ ((cfg2.win 5).blk t).view.set ↔ ∀ a : Fin 2, win2_5.index t a * S5000x256.size a ≤ (i a).val ∧ (i a).val < win2_5.index t a * S5000x256.size a + S5000x256.size a := by
  show i ∈ ((View.whole main_v51).slice (win2_5.rect t)).set ↔ _
  rw [View.set_slice_whole, Rect.mem_set_unit]
  exact Iff.rfl

/-- The result array after the region: the projection stage of the arrays the region found (row r lies in the block
    of point r / 5000). -/
theorem final2 (c : Dev nD) :
    (dat2 V c).arrAt 5 cfg2.N = proj (V c main_v47) (V c main_v34) (V c main_v48) (V c main_v49) (V c main_v50) :=
  (dat2 V c).arrAt_eq_of_cover 5 _ (fun t _ => flushed2 V c t) fun i => by
    have h0 : (i 0).val < 50000 := (i 0).isLt
    have h1 : (i 1).val < 256 := (i 1).isLt
    have hN : (i 0).val / 5000 < cfg2.N := by rw [show cfg2.N = 10 from N_2]; omega
    obtain ⟨-, -, -, -, -, -, -, -, -, -, e0, e1⟩ := idx2 ⟨(i 0).val / 5000, hN⟩
    refine ⟨⟨(i 0).val / 5000, hN⟩, flush2_5 _, ?_⟩
    rw [mem_blk2]
    intro a
    match a with
    | ⟨0, _⟩ =>
      show win2_5.index ⟨(i 0).val / 5000, hN⟩ (0 : Fin 2) * 5000 ≤ (i 0).val ∧ (i 0).val < win2_5.index ⟨(i 0).val / 5000, hN⟩ (0 : Fin 2) * 5000 + 5000
      rw [e0]; show (i 0).val / 5000 * 5000 ≤ (i 0).val ∧ (i 0).val < (i 0).val / 5000 * 5000 + 5000; omega
    | ⟨1, _⟩ =>
      show win2_5.index ⟨(i 0).val / 5000, hN⟩ (1 : Fin 2) * 256 ≤ (i 1).val ∧ (i 1).val < win2_5.index ⟨(i 0).val / 5000, hN⟩ (1 : Fin 2) * 256 + 256
      rw [e1]; omega

end Cert.KernelIdeal.Hand

end
-- ==== Proof.Region3.lean ====
/-
  Region 3: the normalisation stage of a layer, walked ten blocks of 5000 rows at a time. At grid point t the body reads
  rows 5000·t … 5000·t+4999 of the activations and the four one-row operands (column means, column variances, scale,
  shift) whole, and writes the same rows of the result. Entry by entry that block is the same rows of
  `Layers.normRelu` taken on the whole arrays, and the ten blocks tile the result.
-/
import proofs.«162949_j2602750181462_1_alg».proof.Proof.Gen.KernelIdeal.Frame
import proofs.«162949_j2602750181462_1_alg».proof.Proof.LibLayerStages
import Idealize.ShloMosaic.Lib.Pipeline.Value
import Idealize.ShloMosaic.Lib.Tactic

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.StableHlo Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem zero_off3 : (![0, 0] : Fin 2 → Nat) = fun _ => 0 := funext fun a => by fin_cases a <;> rfl

/-- The block index maps over the grid: the activations and the result move with the grid point along the rows, the
    one-row operands stay at block (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem lt_ten3 (t : Fin cfg3.N) : t.val < 10 := by
  have h : t.val < cfg3.N := t.isLt
  have e : cfg3.N = 10 := N_3
  omega

/-- The body's stored value at an entry of the block is the normalisation stage at the entry `o` rows further down. -/
theorem pay3_at (H : FVec Ideal S50000x256 .f32) (mu v g be : FVec Ideal S1x256 .f32)
    (x0 : Vec Ideal S5000x256 .f32) (xv xm xg xb : Vec Ideal S1x256 .f32) (o : ℕ) (ho : o + 5000 ≤ 50000)
    (h0 : ∀ (a : Fin 5000) (d : Fin 256), x0 (ix2 a d) = H (ix2 (⟨o + a.val, by have := a.isLt; omega⟩ : Fin 50000) d))
    (h1 : ∀ d : Fin 256, xm (ix2 (0 : Fin 1) d) = mu (ix2 (0 : Fin 1) d))
    (h2 : ∀ d : Fin 256, xv (ix2 (0 : Fin 1) d) = v (ix2 (0 : Fin 1) d))
    (h3 : ∀ d : Fin 256, xg (ix2 (0 : Fin 1) d) = g (ix2 (0 : Fin 1) d))
    (h4 : ∀ d : Fin 256, xb (ix2 (0 : Fin 1) d) = be (ix2 (0 : Fin 1) d))
    (j : S5000x256.Idx) (i : S50000x256.Idx) (hi0 : (i 0).val = o + (j 0).val) (hi1 : (i 1).val = (j 1).val) :
    k3_pay1 x0 xv xm xg xb j = normRelu H mu v g be i := by
  obtain ⟨a, d, rfl⟩ : ∃ (a : Fin 5000) (d : Fin 256), j = ix2 a d := ⟨j 0, j 1, eq_ix2 j⟩
  have hi : i = ix2 (⟨o + a.val, by have := a.isLt; omega⟩ : Fin 50000) d := by
    funext ax; apply Fin.ext
    match ax with
    | ⟨0, _⟩ => exact hi0
    | ⟨1, _⟩ => exact hi1
  rw [hi]
  unfold k3_pay1
  simp only [shapeCast_self]
  exact normRelu_rows H mu v g be x0 xm xv xg xb _ o ho h0 h1 h2 h3 h4 a d

/-- The activations' block at point `t` is rows 5000·t … of the array. -/
theorem rows3_0 (c : Dev nD) (t : Fin cfg3.N) (a : Fin 5000) (d : Fin 256) :
    (iblk3 V c 0 t : Vec Ideal S5000x256 .f32) (ix2 a d)
      = (V c main_v51 : S50000x256.Idx → EReal) (ix2 (⟨t.val * 5000 + a.val, by have := a.isLt; have := lt_ten3 t; omega⟩ : Fin 50000) d) := by
  obtain ⟨e0, e1, -⟩ := idx3 t
  unfold iblk3
  rw [View.read_apply]
  show V c main_v51 _ = V c main_v51 _
  congr 1
  funext ax; apply Fin.ext
  match ax with
  | ⟨0, _⟩ => show win3_0.index t (0 : Fin 2) * 5000 + 1 * a.val = t.val * 5000 + a.val; rw [e0]; omega
  | ⟨1, _⟩ => show win3_0.index t (1 : Fin 2) * 256 + 1 * d.val = d.val; rw [e1]; omega

/-- A one-row operand's block at any point is the whole of its array. -/
theorem whole3_1 (c : Dev nD) (t : Fin cfg3.N) (d : Fin 256) :
    (iblk3 V c 1 t : Vec Ideal S1x256 .f32) (ix2 (0 : Fin 1) d) = (V c main_v55 : S1x256.Idx → EReal) (ix2 (0 : Fin 1) d) := by
  obtain ⟨-, -, e0, e1, -⟩ := idx3 t
  unfold iblk3
  rw [View.read_apply]
  show V c main_v55 _ = V c main_v55 _
  congr 1
  funext ax; apply Fin.ext
  match ax with
  | ⟨0, _⟩ => show win3_1.index t (0 : Fin 2) * 1 + 1 * 0 = 0; rw [e0]
  | ⟨1, _⟩ => show win3_1.index t (1 : Fin 2) * 256 + 1 * d.val = d.val; rw [e1]; omega

theorem whole3_2 (c : Dev nD) (t : Fin cfg3.N) (d : Fin 256) :
    (iblk3 V c 2 t : Vec Ideal S1x256 .f32) (ix2 (0 : Fin 1) d) = (V c main_v62 : S1x256.Idx → EReal) (ix2 (0 : Fin 1) d) := by
  obtain ⟨-, -, -, -, e0, e1, -⟩ := idx3 t
  unfold iblk3
  rw [View.read_apply]
  show V c main_v62 _ = V c main_v62 _
  congr 1
  funext ax; apply Fin.ext
  match ax with
  | ⟨0, _⟩ => show win3_2.index t (0 : Fin 2) * 1 + 1 * 0 = 0; rw [e0]
  | ⟨1, _⟩ => show win3_2.index t (1 : Fin 2) * 256 + 1 * d.val = d.val; rw [e1]; omega

theorem whole3_3 (c : Dev nD) (t : Fin cfg3.N) (d : Fin 256) :
    (iblk3 V c 3 t : Vec Ideal S1x256 .f32) (ix2 (0 : Fin 1) d) = (V c main_v63 : S1x256.Idx → EReal) (ix2 (0 : Fin 1) d) := by
  obtain ⟨-, -, -, -, -, -, e0, e1, -⟩ := idx3 t
  unfold iblk3
  rw [View.read_apply]
  show V c main_v63 _ = V c main_v63 _
  congr 1
  funext ax; apply Fin.ext
  match ax with
  | ⟨0, _⟩ => show win3_3.index t (0 : Fin 2) * 1 + 1 * 0 = 0; rw [e0]
  | ⟨1, _⟩ => show win3_3.index t (1 : Fin 2) * 256 + 1 * d.val = d.val; rw [e1]; omega

theorem whole3_4 (c : Dev nD) (t : Fin cfg3.N) (d : Fin 256) :
    (iblk3 V c 4 t : Vec Ideal S1x256 .f32) (ix2 (0 : Fin 1) d) = (V c main_v64 : S1x256.Idx → EReal) (ix2 (0 : Fin 1) d) := by
  obtain ⟨-, -, -, -, -, -, -, -, e0, e1, -⟩ := idx3 t
  unfold iblk3
  rw [View.read_apply]
  show V c main_v64 _ = V c main_v64 _
  congr 1
  funext ax; apply Fin.ext
  match ax with
  | ⟨0, _⟩ => show win3_4.index t (0 : Fin 2) * 1 + 1 * 0 = 0; rw [e0]
  | ⟨1, _⟩ => show win3_4.index t (1 : Fin 2) * 256 + 1 * d.val = d.val; rw [e1]; omega

/-- What point `t` writes back is block `t` of the normalisation stage of the arrays the region found. -/
theorem flushed3 (c : Dev nD) (t : Fin cfg3.N) :
    (dat3 V c).flushed 5 t = ((cfg3.win 5).blk t).view.read (Elt Ideal)
      (normRelu (V c main_v51) (V c main_v55) (V c main_v62) (V c main_v63) (V c main_v64)) := by
  have ht := lt_ten3 t
  obtain ⟨-, -, -, -, -, -, -, -, -, -, e0, e1⟩ := idx3 t
  show (cfg3.win 5).cut (grid3.coords t) ((dat3 V c).after 5 t) = _
  rw [after3_5]
  unfold out3_5
  rw [View.canon_unit_zero zero_off3]
  simp only [View.ld_unit_zero (S := S5000x256) zero_off3, View.ld_unit_zero (S := S1x256) zero_off3]
  funext j
  rw [View.read_apply]
  refine pay3_at (V c main_v51) (V c main_v55) (V c main_v62) (V c main_v63) (V c main_v64)
    (iblk3 V c 0 t) (iblk3 V c 2 t) (iblk3 V c 1 t) (iblk3 V c 3 t) (iblk3 V c 4 t) (t.val * 5000) (by omega)
    (rows3_0 V c t) (whole3_1 V c t) (whole3_2 V c t) (whole3_3 V c t) (whole3_4 V c t) j _ ?_ ?_
  · show win3_5.index t (0 : Fin 2) * 5000 + 1 * (j 0).val = t.val * 5000 + (j 0).val
    rw [e0]; omega
  · show win3_5.index t (1 : Fin 2) * 256 + 1 * (j 1).val = (j 1).val
    rw [e1]; omega

/-- An index of the result array lies in point `t`'s block when each coordinate lies in the block's range. -/
theorem mem_blk3 (t : Fin cfg3.N) (i : S50000x256.Idx) :
    i ∈ ((cfg3.win 5).blk t).view.set ↔ ∀ a : Fin 2, win3_5.index t a * S5000x256.size a ≤ (i a).val ∧ (i a).val < win3_5.index t a * S5000x256.size a + S5000x256.size a := by
  show i ∈ ((View.whole main_v65).slice (win3_5.rect t)).set ↔ _
  rw [View.set_slice_whole, Rect.mem_set_unit]
  exact Iff.rfl

/-- The result array after the region: the normalisation stage of the arrays the region found. -/
theorem final3 (c : Dev nD) :
    (dat3 V c).arrAt 5 cfg3.N = normRelu (V c main_v51) (V c main_v55) (V c main_v62) (V c main_v63) (V c main_v64) :=
  (dat3 V c).arrAt_eq_of_cover 5 _ (fun t _ => flushed3 V c t) fun i => by
    have h0 : (i 0).val < 50000 := (i 0).isLt
    have h1 : (i 1).val < 256 := (i 1).isLt
    have hN : (i 0).val / 5000 < cfg3.N := by rw [show cfg3.N = 10 from N_3]; omega
    obtain ⟨-, -, -, -, -, -, -, -, -, -, e0, e1⟩ := idx3 ⟨(i 0).val / 5000, hN⟩
    refine ⟨⟨(i 0).val / 5000, hN⟩, flush3_5 _, ?_⟩
    rw [mem_blk3]
    intro a
    match a with
    | ⟨0, _⟩ =>
      show win3_5.index ⟨(i 0).val / 5000, hN⟩ (0 : Fin 2) * 5000 ≤ (i 0).val ∧ (i 0).val < win3_5.index ⟨(i 0).val / 5000, hN⟩ (0 : Fin 2) * 5000 + 5000
      rw [e0]; show (i 0).val / 5000 * 5000 ≤ (i 0).val ∧ (i 0).val < (i 0).val / 5000 * 5000 + 5000; omega
    | ⟨1, _⟩ =>
      show win3_5.index ⟨(i 0).val / 5000, hN⟩ (1 : Fin 2) * 256 ≤ (i 1).val ∧ (i 1).val < win3_5.index ⟨(i 0).val / 5000, hN⟩ (1 : Fin 2) * 256 + 256
      rw [e1]; omega

end Cert.KernelIdeal.Hand

end
-- ==== Proof.Region4.lean ====
/-
  Region 4: the projection stage of a layer, walked ten blocks of 5000 rows at a time. At grid point t the body reads
  rows 5000·t … 5000·t+4999 of the aggregated features and of the node features, the two 256×64 weight matrices whole
  and the one-row bias, and writes rows 5000·t … 5000·t+4999 of the result. Entry by entry that block is the same rows
  of `Layers.proj` taken on the whole arrays, and the ten blocks tile the result, so the result array ends holding
  `Layers.proj` of the arrays the region found.
-/
import proofs.«162949_j2602750181462_1_alg».proof.Proof.Gen.KernelIdeal.Frame
import proofs.«162949_j2602750181462_1_alg».proof.Proof.LibLayerStages
import Idealize.ShloMosaic.Lib.Pipeline.Value
import Idealize.ShloMosaic.Lib.Tactic

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.StableHlo Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem zero_off4 : (![0, 0] : Fin 2 → Nat) = fun _ => 0 := funext fun a => by fin_cases a <;> rfl

/-- The block index maps over the grid: the row operands and the result move with the grid point along the rows, the
    small operands stay at block (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem lt_ten4 (t : Fin cfg4.N) : t.val < 10 := by
  have h : t.val < cfg4.N := t.isLt
  have e : cfg4.N = 10 := N_4
  omega

/-- The body's stored value at an entry of the block is the projection stage at the entry `o` rows further down, when
    the row blocks hold rows `o …` of the row operands and the small blocks the small operands. -/
theorem pay4_at (A X : FVec Ideal S50000x256 .f32) (P Q : FVec Ideal S256x64 .f32) (b : FVec Ideal S1x64 .f32)
    (x0 x1 : Vec Ideal S5000x256 .f32) (x2 x3 : Vec Ideal S256x64 .f32) (x4 : Vec Ideal S1x64 .f32) (o : ℕ) (ho : o + 5000 ≤ 50000)
    (h0 : ∀ (a : Fin 5000) (e : Fin 256), x0 (ix2 a e) = A (ix2 (⟨o + a.val, by have := a.isLt; omega⟩ : Fin 50000) e))
    (h1 : ∀ (a : Fin 5000) (e : Fin 256), x1 (ix2 a e) = X (ix2 (⟨o + a.val, by have := a.isLt; omega⟩ : Fin 50000) e))
    (h2 : ∀ (e : Fin 256) (d : Fin 64), x2 (ix2 e d) = P (ix2 e d))
    (h3 : ∀ (e : Fin 256) (d : Fin 64), x3 (ix2 e d) = Q (ix2 e d))
    (h4 : ∀ d : Fin 64, x4 (ix2 (0 : Fin 1) d) = b (ix2 (0 : Fin 1) d))
    (j : S5000x64.Idx) (i : S50000x64.Idx) (hi0 : (i 0).val = o + (j 0).val) (hi1 : (i 1).val = (j 1).val) :
    k4_pay1 x0 x1 x2 x3 x4 j = proj A X P Q b i := by
  obtain ⟨a, d, rfl⟩ : ∃ (a : Fin 5000) (d : Fin 64), j = ix2 a d := ⟨j 0, j 1, eq_ix2 j⟩
  have hi : i = ix2 (⟨o + a.val, by have := a.isLt; omega⟩ : Fin 50000) d := by
    funext ax; apply Fin.ext
    match ax with
    | ⟨0, _⟩ => exact hi0
    | ⟨1, _⟩ => exact hi1
  rw [hi]
  unfold k4_pay1
  simp only [shapeCast_self]
  exact proj_rows _ none A X P Q b _ _ _ _ x4 _ o ho h0 h2 h1 h3 h4 a d

/-- A row operand's block at point `t` is rows 5000·t … of its array. -/
theorem rows4_0 (c : Dev nD) (t : Fin cfg4.N) (a : Fin 5000) (e : Fin 256) :
    (iblk4 V c 0 t : Vec Ideal S5000x256 .f32) (ix2 a e)
      = (V c main_v78 : S50000x256.Idx → EReal) (ix2 (⟨t.val * 5000 + a.val, by have := a.isLt; have := lt_ten4 t; omega⟩ : Fin 50000) e) := by
  obtain ⟨e0, e1, -⟩ := idx4 t
  unfold iblk4
  rw [View.read_apply]
  show V c main_v78 _ = V c main_v78 _
  congr 1
  funext ax; apply Fin.ext
  match ax with
  | ⟨0, _⟩ => show win4_0.index t (0 : Fin 2) * 5000 + 1 * a.val = t.val * 5000 + a.val; rw [e0]; omega
  | ⟨1, _⟩ => show win4_0.index t (1 : Fin 2) * 256 + 1 * e.val = e.val; rw [e1]; omega

theorem rows4_1 (c : Dev nD) (t : Fin cfg4.N) (a : Fin 5000) (e : Fin 256) :
    (iblk4 V c 1 t : Vec Ideal S5000x256 .f32) (ix2 a e)
      = (V c main_v65 : S50000x256.Idx → EReal) (ix2 (⟨t.val * 5000 + a.val, by have := a.isLt; have := lt_ten4 t; omega⟩ : Fin 50000) e) := by
  obtain ⟨-, -, e0, e1, -⟩ := idx4 t
  unfold iblk4
  rw [View.read_apply]
  show V c main_v65 _ = V c main_v65 _
  congr 1
  funext ax; apply Fin.ext
  match ax with
  | ⟨0, _⟩ => show win4_1.index t (0 : Fin 2) * 5000 + 1 * a.val = t.val * 5000 + a.val; rw [e0]; omega
  | ⟨1, _⟩ => show win4_1.index t (1 : Fin 2) * 256 + 1 * e.val = e.val; rw [e1]; omega

/-- A small operand's block at any point is the whole of its array. -/
theorem whole4_2 (c : Dev nD) (t : Fin cfg4.N) (e : Fin 256) (d : Fin 64) :
    (iblk4 V c 2 t : Vec Ideal S256x64 .f32) (ix2 e d) = (V c main_v79 : S256x64.Idx → EReal) (ix2 e d) := by
  obtain ⟨-, -, -, -, e0, e1, -⟩ := idx4 t
  unfold iblk4
  rw [View.read_apply]
  show V c main_v79 _ = V c main_v79 _
  congr 1
  funext ax; apply Fin.ext
  match ax with
  | ⟨0, _⟩ => show win4_2.index t (0 : Fin 2) * 256 + 1 * e.val = e.val; rw [e0]; omega
  | ⟨1, _⟩ => show win4_2.index t (1 : Fin 2) * 64 + 1 * d.val = d.val; rw [e1]; omega

theorem whole4_3 (c : Dev nD) (t : Fin cfg4.N) (e : Fin 256) (d : Fin 64) :
    (iblk4 V c 3 t : Vec Ideal S256x64 .f32) (ix2 e d) = (V c main_v80 : S256x64.Idx → EReal) (ix2 e d) := by
  obtain ⟨-, -, -, -, -, -, e0, e1, -⟩ := idx4 t
  unfold iblk4
  rw [View.read_apply]
  show V c main_v80 _ = V c main_v80 _
  congr 1
  funext ax; apply Fin.ext
  match ax with
  | ⟨0, _⟩ => show win4_3.index t (0 : Fin 2) * 256 + 1 * e.val = e.val; rw [e0]; omega
  | ⟨1, _⟩ => show win4_3.index t (1 : Fin 2) * 64 + 1 * d.val = d.val; rw [e1]; omega

theorem whole4_4 (c : Dev nD) (t : Fin cfg4.N) (d : Fin 64) :
    (iblk4 V c 4 t : Vec Ideal S1x64 .f32) (ix2 (0 : Fin 1) d) = (V c main_v81 : S1x64.Idx → EReal) (ix2 (0 : Fin 1) d) := by
  obtain ⟨-, -, -, -, -, -, -, -, e0, e1, -⟩ := idx4 t
  unfold iblk4
  rw [View.read_apply]
  show V c main_v81 _ = V c main_v81 _
  congr 1
  funext ax; apply Fin.ext
  match ax with
  | ⟨0, _⟩ => show win4_4.index t (0 : Fin 2) * 1 + 1 * 0 = 0; rw [e0]
  | ⟨1, _⟩ => show win4_4.index t (1 : Fin 2) * 64 + 1 * d.val = d.val; rw [e1]; omega

/-- What point `t` writes back is block `t` of the projection stage of the arrays the region found. -/
theorem flushed4 (c : Dev nD) (t : Fin cfg4.N) :
    (dat4 V c).flushed 5 t = ((cfg4.win 5).blk t).view.read (Elt Ideal)
      (proj (V c main_v78) (V c main_v65) (V c main_v79) (V c main_v80) (V c main_v81)) := by
  have ht := lt_ten4 t
  obtain ⟨-, -, -, -, -, -, -, -, -, -, e0, e1⟩ := idx4 t
  show (cfg4.win 5).cut (grid4.coords t) ((dat4 V c).after 5 t) = _
  rw [after4_5]
  unfold out4_5
  rw [View.canon_unit_zero zero_off4]
  simp only [View.ld_unit_zero (S := S5000x256) zero_off4, View.ld_unit_zero (S := S256x64) zero_off4, View.ld_unit_zero (S := S1x64) zero_off4]
  funext j
  rw [View.read_apply]
  refine pay4_at (V c main_v78) (V c main_v65) (V c main_v79) (V c main_v80) (V c main_v81)
    (iblk4 V c 0 t) (iblk4 V c 1 t) (iblk4 V c 2 t) (iblk4 V c 3 t) (iblk4 V c 4 t) (t.val * 5000) (by omega)
    (rows4_0 V c t) (rows4_1 V c t) (whole4_2 V c t) (whole4_3 V c t) (whole4_4 V c t) j _ ?_ ?_
  · show win4_5.index t (0 : Fin 2) * 5000 + 1 * (j 0).val = t.val * 5000 + (j 0).val
    rw [e0]; omega
  · show win4_5.index t (1 : Fin 2) * 64 + 1 * (j 1).val = (j 1).val
    rw [e1]; omega

/-- An index of the result array lies in point `t`'s block when each coordinate lies in the block's range. -/
theorem mem_blk4 (t : Fin cfg4.N) (i : S50000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v82).slice (win4_5.rect t)).set ↔ _
  rw [View.set_slice_whole, Rect.mem_set_unit]
  exact Iff.rfl

/-- The result array after the region: the projection stage of the arrays the region found (row r lies in the block
    of point r / 5000). -/
theorem final4 (c : Dev nD) :
    (dat4 V c).arrAt 5 cfg4.N = proj (V c main_v78) (V c main_v65) (V c main_v79) (V c main_v80) (V c main_v81) :=
  (dat4 V c).arrAt_eq_of_cover 5 _ (fun t _ => flushed4 V c t) fun i => by
    have h0 : (i 0).val < 50000 := (i 0).isLt
    have h1 : (i 1).val < 64 := (i 1).isLt
    have hN : (i 0).val / 5000 < cfg4.N := by rw [show cfg4.N = 10 from N_4]; omega
    obtain ⟨-, -, -, -, -, -, -, -, -, -, e0, e1⟩ := idx4 ⟨(i 0).val / 5000, hN⟩
    refine ⟨⟨(i 0).val / 5000, hN⟩, flush4_5 _, ?_⟩
    rw [mem_blk4]
    intro a
    match a with
    | ⟨0, _⟩ =>
      show win4_5.index ⟨(i 0).val / 5000, hN⟩ (0 : Fin 2) * 5000 ≤ (i 0).val ∧ (i 0).val < win4_5.index ⟨(i 0).val / 5000, hN⟩ (0 : Fin 2) * 5000 + 5000
      rw [e0]; show (i 0).val / 5000 * 5000 ≤ (i 0).val ∧ (i 0).val < (i 0).val / 5000 * 5000 + 5000; omega
    | ⟨1, _⟩ =>
      show win4_5.index ⟨(i 0).val / 5000, hN⟩ (1 : Fin 2) * 64 ≤ (i 1).val ∧ (i 1).val < win4_5.index ⟨(i 0).val / 5000, hN⟩ (1 : Fin 2) * 64 + 64
      rw [e1]; omega

end Cert.KernelIdeal.Hand

end
-- ==== Proof.RefFns.lean ====
/-
  The reference program's stages as functions of explicit operands: the aggregation of scaled source rows into
  destination rows, a layer's projection (aggregate times one transposed weight matrix, plus the bias laid along every
  row, plus the features times another transposed weight matrix), the column mean and variance over the 50000 rows and
  the normalisation followed by the rectifier; and the whole reference as their composition over three layers.
-/
import proofs.«162949_j2602750181462_1_alg».proof.Proof.Gen.ReferenceIdeal.Read

set_option maxRecDepth 16384

noncomputable section

namespace Cert.RefFns

open Cert.ReferenceIdeal Cert.ReferenceIdeal.Read Idealize.ShloMosaic
open Cert.ReferenceIdeal.Facts₀ Cert.ReferenceIdeal.Facts

variable {F : FTy → Type} [FloatOps F]

/-- The source indices as a column, a negative index counted from the end (50000 added). -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destination indices as a column. -/
def dstCol (d : (⟨S800000, .i32⟩ : BufTy).Contents (Elt F)) : (⟨S800000x1, .i32⟩ : BufTy).Contents (Elt F) :=
  broadcastInDim S800000x1 ![0] bcast_S800000_S800000x1_0 d

/-- Each edge's source row scaled by the edge's weight, summed into the edge's destination row (128 features). -/
def agg128 (x : (⟨S50000x128, .f32⟩ : BufTy).Contents (Elt F)) (s d : (⟨S800000, .i32⟩ : BufTy).Contents (Elt F)) (w : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (dstCol d)
    (mulf (Host.gather gather_S50000x128_S800000x1_S800000x128_1_0_n_n_0_1_1128 x (srcCol s))
      (broadcastInDim S800000x128 ![0, 1] bcast_S800000x1_S800000x128_0_1 (broadcastInDim S800000x1 ![0] bcast_S800000_S800000x1_0 w)))

/-- Each edge's source row scaled by the edge's weight, summed into the edge's destination row (256 features). -/
def agg256 (x : (⟨S50000x256, .f32⟩ : BufTy).Contents (Elt F)) (s d : (⟨S800000, .i32⟩ : BufTy).Contents (Elt F)) (w : (⟨S800000, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (dstCol d)
    (mulf (Host.gather gather_S50000x256_S800000x1_S800000x256_1_0_n_n_0_1_1256 x (srcCol s))
      (broadcastInDim S800000x256 ![0, 1] bcast_S800000x1_S800000x256_0_1 (broadcastInDim S800000x1 ![0] bcast_S800000_S800000x1_0 w)))

/-- The first layer's projection. -/
def layer0 (A X : (⟨S50000x128, .f32⟩ : BufTy).Contents (Elt F)) (Wr Wt : (⟨S256x128, .f32⟩ : BufTy).Contents (Elt F)) (br : (⟨S256, .f32⟩ : BufTy).Contents (Elt F)) : (⟨S50000x256, .f32⟩ : BufTy).Contents (Elt F) :=
  addf (addf (Host.dotGeneral dot_S50000x128_S128x256_S50000x256_1_0_0_1_n_n none A (transpose S128x256 [1, 0] Wr transposes_S256x128_S128x256_1_0))
      (broadcastInDim S50000x256 ![0, 1] bcast_S1x256_S50000x256_0_1 (broadcastInDim S1x256 ![1] bcast_S256_S1x256_1 br)))
    (Host.dotGeneral dot_S50000x128_S128x256_S50000x256_1_0_0_1_n_n none X (transpose S128x256 [1, 0] Wt transposes_S256x128_S128x256_1_0))

/-- The second layer's projection. -/
def layer1 (A X : (⟨S50000x256, .f32⟩ : BufTy).Contents (Elt F)) (Wr Wt : (⟨S256x256, .f32⟩ : BufTy).Contents (Elt F)) (br : (⟨S256, .f32⟩ : BufTy).Contents (Elt F)) : (⟨S50000x256, .f32⟩ : BufTy).Contents (Elt F) :=
  addf (addf (Host.dotGeneral dot_S50000x256_S256x256_S50000x256_1_0_0_1_n_n none A (transpose S256x256 [1, 0] Wr transposes_S256x256_S256x256_1_0))
      (broadcastInDim S50000x256 ![0, 1] bcast_S1x256_S50000x256_0_1 (broadcastInDim S1x256 ![1] bcast_S256_S1x256_1 br)))
    (Host.dotGeneral dot_S50000x256_S256x256_S50000x256_1_0_0_1_n_n none X (transpose S256x256 [1, 0] Wt transposes_S256x256_S256x256_1_0))

/-- The third layer's projection. -/
def layer2 (A X : (⟨S50000x256, .f32⟩ : BufTy).Contents (Elt F)) (Wr Wt : (⟨S64x256, .f32⟩ : BufTy).Contents (Elt F)) (br : (⟨S64, .f32⟩ : BufTy).Contents (Elt F)) : (⟨S50000x64, .f32⟩ : BufTy).Contents (Elt F) :=
  addf (addf (Host.dotGeneral dot_S50000x256_S256x64_S50000x64_1_0_0_1_n_n none A (transpose S256x64 [1, 0] Wr transposes_S64x256_S256x64_1_0))
      (broadcastInDim S50000x64 ![0, 1] bcast_S1x64_S50000x64_0_1 (broadcastInDim S1x64 ![1] bcast_S64_S1x64_1 br)))
    (Host.dotGeneral dot_S50000x256_S256x64_S50000x64_1_0_0_1_n_n none X (transpose S256x64 [1, 0] Wt transposes_S64x256_S256x64_1_0))

/-- The column means over the 50000 rows. -/
def meanVec (H : (⟨S50000x256, .f32⟩ : BufTy).Contents (Elt F)) : (⟨S256, .f32⟩ : BufTy).Contents (Elt F) :=
  Host.divf (Host.reduceAdd H (constant S_ .f32 0x00000000#32) reducesTo_S50000x256_S256_d0 h_S_)
    (broadcastInDim S256 ![] bcast_S_S256 (constant S_ .f32 0x47435000#32))

/-- A vector laid along every row. -/
def rows (v : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 v)

/-- The column variances: the mean of the squared deviations from a given vector of column centres. -/
def varVec (H : (⟨S50000x256, .f32⟩ : BufTy).Contents (Elt F)) (mu : (⟨S50000x256, .f32⟩ : BufTy).Contents (Elt F)) : (⟨S256, .f32⟩ : BufTy).Contents (Elt F) :=
  Host.divf (Host.reduceAdd (mulf (subf H mu) (subf H mu)) (constant S_ .f32 0x00000000#32) reducesTo_S50000x256_S256_d0 h_S_)
    (broadcastInDim S256 ![] bcast_S_S256 (constant S_ .f32 0x47435000#32))

/-- Centre, scale by the reciprocal root of variance + ε, scale, shift, rectify. -/
def bnrelu (H : (⟨S50000x256, .f32⟩ : BufTy).Contents (Elt F)) (g be : (⟨S256, .f32⟩ : BufTy).Contents (Elt F)) : (⟨S50000x256, .f32⟩ : BufTy).Contents (Elt F) :=
  maximumf (addf (mulf (mulf (subf H (rows (meanVec H)))
      (rows (Host.rsqrt (addf (varVec H (rows (meanVec H))) (broadcastInDim S256 ![] bcast_S_S256 (constant S_ .f32 0x3727C5AC#32))))))
      (rows g)) (rows be))
    (broadcastInDim S50000x256 ![] bcast_S_S50000x256 (constant S_ .f32 0x00000000#32))

/-- The activations after the first layer and its normalisation. -/
def h1 (x0 : (⟨S50000x128, .f32⟩ : BufTy).Contents (Elt F)) (x1 : (⟨S2x800000, .i32⟩ : BufTy).Contents (Elt F)) (x2 : (⟨S800000, .f32⟩ : BufTy).Contents (Elt F)) (x3 : (⟨S256x128, .f32⟩ : BufTy).Contents (Elt F)) (x4 : (⟨S256, .f32⟩ : BufTy).Contents (Elt F)) (x5 : (⟨S256x128, .f32⟩ : BufTy).Contents (Elt F)) (x6 x7 : (⟨S256, .f32⟩ : BufTy).Contents (Elt F)) (x8 : (⟨S256x256, .f32⟩ : BufTy).Contents (Elt F)) (x9 : (⟨S256, .f32⟩ : BufTy).Contents (Elt F)) (x10 : (⟨S256x256, .f32⟩ : BufTy).Contents (Elt F)) (x11 x12 : (⟨S256, .f32⟩ : BufTy).Contents (Elt F)) (x13 : (⟨S64x256, .f32⟩ : BufTy).Contents (Elt F)) (x14 : (⟨S64, .f32⟩ : BufTy).Contents (Elt F)) (x15 : (⟨S64x256, .f32⟩ : BufTy).Contents (Elt F)) : (⟨S50000x256, .f32⟩ : BufTy).Contents (Elt F) :=
  bnrelu (layer0 (agg128 x0 (val_main_v1 x1) (val_main_v3 x1) x2) x0 x3 x5 x4) x6 x7

/-- The activations after the second layer and its normalisation. -/
def h2 (x0 : (⟨S50000x128, .f32⟩ : BufTy).Contents (Elt F)) (x1 : (⟨S2x800000, .i32⟩ : BufTy).Contents (Elt F)) (x2 : (⟨S800000, .f32⟩ : BufTy).Contents (Elt F)) (x3 : (⟨S256x128, .f32⟩ : BufTy).Contents (Elt F)) (x4 : (⟨S256, .f32⟩ : BufTy).Contents (Elt F)) (x5 : (⟨S256x128, .f32⟩ : BufTy).Contents (Elt F)) (x6 x7 : (⟨S256, .f32⟩ : BufTy).Contents (Elt F)) (x8 : (⟨S256x256, .f32⟩ : BufTy).Contents (Elt F)) (x9 : (⟨S256, .f32⟩ : BufTy).Contents (Elt F)) (x10 : (⟨S256x256, .f32⟩ : BufTy).Contents (Elt F)) (x11 x12 : (⟨S256, .f32⟩ : BufTy).Contents (Elt F)) (x13 : (⟨S64x256, .f32⟩ : BufTy).Contents (Elt F)) (x14 : (⟨S64, .f32⟩ : BufTy).Contents (Elt F)) (x15 : (⟨S64x256, .f32⟩ : BufTy).Contents (Elt F)) : (⟨S50000x256, .f32⟩ : BufTy).Contents (Elt F) :=
  bnrelu (layer1 (agg256 (h1 x0 x1 x2 x3 x4 x5 x6 x7 x8 x9 x10 x11 x12 x13 x14 x15) (val_main_v1 x1) (val_main_v3 x1) x2) (h1 x0 x1 x2 x3 x4 x5 x6 x7 x8 x9 x10 x11 x12 x13 x14 x15) x8 x10 x9) x11 x12

/-- The reference's result. -/
def out (x0 : (⟨S50000x128, .f32⟩ : BufTy).Contents (Elt F)) (x1 : (⟨S2x800000, .i32⟩ : BufTy).Contents (Elt F)) (x2 : (⟨S800000, .f32⟩ : BufTy).Contents (Elt F)) (x3 : (⟨S256x128, .f32⟩ : BufTy).Contents (Elt F)) (x4 : (⟨S256, .f32⟩ : BufTy).Contents (Elt F)) (x5 : (⟨S256x128, .f32⟩ : BufTy).Contents (Elt F)) (x6 x7 : (⟨S256, .f32⟩ : BufTy).Contents (Elt F)) (x8 : (⟨S256x256, .f32⟩ : BufTy).Contents (Elt F)) (x9 : (⟨S256, .f32⟩ : BufTy).Contents (Elt F)) (x10 : (⟨S256x256, .f32⟩ : BufTy).Contents (Elt F)) (x11 x12 : (⟨S256, .f32⟩ : BufTy).Contents (Elt F)) (x13 : (⟨S64x256, .f32⟩ : BufTy).Contents (Elt F)) (x14 : (⟨S64, .f32⟩ : BufTy).Contents (Elt F)) (x15 : (⟨S64x256, .f32⟩ : BufTy).Contents (Elt F)) : (⟨S50000x64, .f32⟩ : BufTy).Contents (Elt F) :=
  layer2 (agg256 (h2 x0 x1 x2 x3 x4 x5 x6 x7 x8 x9 x10 x11 x12 x13 x14 x15) (val_main_v1 x1) (val_main_v3 x1) x2) (h2 x0 x1 x2 x3 x4 x5 x6 x7 x8 x9 x10 x11 x12 x13 x14 x15) x13 x15 x14

theorem v50_eq (x0 : (⟨S50000x128, .f32⟩ : BufTy).Contents (Elt F)) (x1 : (⟨S2x800000, .i32⟩ : BufTy).Contents (Elt F)) (x2 : (⟨S800000, .f32⟩ : BufTy).Contents (Elt F)) (x3 : (⟨S256x128, .f32⟩ : BufTy).Contents (Elt F)) (x4 : (⟨S256, .f32⟩ : BufTy).Contents (Elt F)) (x5 : (⟨S256x128, .f32⟩ : BufTy).Contents (Elt F)) (x6 x7 : (⟨S256, .f32⟩ : BufTy).Contents (Elt F)) (x8 : (⟨S256x256, .f32⟩ : BufTy).Contents (Elt F)) (x9 : (⟨S256, .f32⟩ : BufTy).Contents (Elt F)) (x10 : (⟨S256x256, .f32⟩ : BufTy).Contents (Elt F)) (x11 x12 : (⟨S256, .f32⟩ : BufTy).Contents (Elt F)) (x13 : (⟨S64x256, .f32⟩ : BufTy).Contents (Elt F)) (x14 : (⟨S64, .f32⟩ : BufTy).Contents (Elt F)) (x15 : (⟨S64x256, .f32⟩ : BufTy).Contents (Elt F)) : val_main_v50 (F := F) x0 x1 x2 x3 x4 x5 x6 x7 = h1 x0 x1 x2 x3 x4 x5 x6 x7 x8 x9 x10 x11 x12 x13 x14 x15 := rfl

theorem v97_eq (x0 : (⟨S50000x128, .f32⟩ : BufTy).Contents (Elt F)) (x1 : (⟨S2x800000, .i32⟩ : BufTy).Contents (Elt F)) (x2 : (⟨S800000, .f32⟩ : BufTy).Contents (Elt F)) (x3 : (⟨S256x128, .f32⟩ : BufTy).Contents (Elt F)) (x4 : (⟨S256, .f32⟩ : BufTy).Contents (Elt F)) (x5 : (⟨S256x128, .f32⟩ : BufTy).Contents (Elt F)) (x6 x7 : (⟨S256, .f32⟩ : BufTy).Contents (Elt F)) (x8 : (⟨S256x256, .f32⟩ : BufTy).Contents (Elt F)) (x9 : (⟨S256, .f32⟩ : BufTy).Contents (Elt F)) (x10 : (⟨S256x256, .f32⟩ : BufTy).Contents (Elt F)) (x11 x12 : (⟨S256, .f32⟩ : BufTy).Contents (Elt F)) (x13 : (⟨S64x256, .f32⟩ : BufTy).Contents (Elt F)) (x14 : (⟨S64, .f32⟩ : BufTy).Contents (Elt F)) (x15 : (⟨S64x256, .f32⟩ : BufTy).Contents (Elt F)) : val_main_v97 (F := F) x0 x1 x2 x3 x4 x5 x6 x7 x8 x9 x10 x11 x12 = h2 x0 x1 x2 x3 x4 x5 x6 x7 x8 x9 x10 x11 x12 x13 x14 x15 := rfl

/-- The reference's composed term is that composition (each stage unfolds to the printed operations). -/
theorem v118_eq (x0 : (⟨S50000x128, .f32⟩ : BufTy).Contents (Elt F)) (x1 : (⟨S2x800000, .i32⟩ : BufTy).Contents (Elt F)) (x2 : (⟨S800000, .f32⟩ : BufTy).Contents (Elt F)) (x3 : (⟨S256x128, .f32⟩ : BufTy).Contents (Elt F)) (x4 : (⟨S256, .f32⟩ : BufTy).Contents (Elt F)) (x5 : (⟨S256x128, .f32⟩ : BufTy).Contents (Elt F)) (x6 x7 : (⟨S256, .f32⟩ : BufTy).Contents (Elt F)) (x8 : (⟨S256x256, .f32⟩ : BufTy).Contents (Elt F)) (x9 : (⟨S256, .f32⟩ : BufTy).Contents (Elt F)) (x10 : (⟨S256x256, .f32⟩ : BufTy).Contents (Elt F)) (x11 x12 : (⟨S256, .f32⟩ : BufTy).Contents (Elt F)) (x13 : (⟨S64x256, .f32⟩ : BufTy).Contents (Elt F)) (x14 : (⟨S64, .f32⟩ : BufTy).Contents (Elt F)) (x15 : (⟨S64x256, .f32⟩ : BufTy).Contents (Elt F)) : val_main_v118 (F := F) x0 x1 x2 x3 x4 x5 x6 x7 x8 x9 x10 x11 x12 x13 x14 x15 = out x0 x1 x2 x3 x4 x5 x6 x7 x8 x9 x10 x11 x12 x13 x14 x15 := rfl

end Cert.RefFns

end
-- ==== Proof.HostStages.lean ====
/-
  What each stretch of host operations between the regions computes, read at the buffers a later stage uses, as the
  reference's stage functions (`Cert.RefFns`) of what the stretch found: the first stretch takes the two index vectors
  from the edge list, aggregates the scaled source rows of the features, transposes the two weight matrices and casts the
  bias to one row; the stretch after a projection takes the column means and variances of its result as one-row matrices
  and casts scale and shift to one row; the stretch after a normalisation aggregates again and prepares the next layer's
  parameters. The kernel program's host operations are the reference's own, so each is the same function.
-/
import proofs.«162949_j2602750181462_1_alg».proof.Proof.Gen.KernelIdeal.Frame
import proofs.«162949_j2602750181462_1_alg».proof.Proof.RefFns
import Idealize.ShloMosaic.Lib.StableHlo.Run

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The first stretch, from the launch memory -/

theorem s0_v1 : W1 m ρ c (Proc.devRef .tc main_v1) = Cert.ReferenceIdeal.Read.val_main_v1 (m ((c : Thread nD τ).loc main_arg1)) := by dsimp only [W1, hostOps0]; after_results_simp <;> rfl
theorem s0_v3 : W1 m ρ c (Proc.devRef .tc main_v3) = Cert.ReferenceIdeal.Read.val_main_v3 (m ((c : Thread nD τ).loc main_arg1)) := by dsimp only [W1, hostOps0]; after_results_simp <;> rfl
theorem s0_v16 : W1 m ρ c (Proc.devRef .tc main_v16) = Cert.RefFns.agg128 (m ((c : Thread nD τ).loc main_arg0)) (Cert.ReferenceIdeal.Read.val_main_v1 (m ((c : Thread nD τ).loc main_arg1))) (Cert.ReferenceIdeal.Read.val_main_v3 (m ((c : Thread nD τ).loc main_arg1))) (m ((c : Thread nD τ).loc main_arg2)) := by dsimp only [W1, hostOps0]; after_results_simp <;> rfl
theorem s0_v17 : W1 m ρ c (Proc.devRef .tc main_v17) = transpose S128x256 [1, 0] (m ((c : Thread nD τ).loc main_arg3)) transposes_S256x128_S128x256_1_0 := by dsimp only [W1, hostOps0]; after_results_simp <;> rfl
theorem s0_v18 : W1 m ρ c (Proc.devRef .tc main_v18) = transpose S128x256 [1, 0] (m ((c : Thread nD τ).loc main_arg5)) transposes_S256x128_S128x256_1_0 := by dsimp only [W1, hostOps0]; after_results_simp <;> rfl
theorem s0_v19 : W1 m ρ c (Proc.devRef .tc main_v19) = shapeCast _ (m ((c : Thread nD τ).loc main_arg4)) shapeCasts_S256_S1x256 := by dsimp only [W1, hostOps0]; after_results_simp <;> rfl
theorem s0_arg0 : W1 m ρ c (Proc.devRef .tc main_arg0) = (m ((c : Thread nD τ).loc main_arg0)) := by dsimp only [W1, hostOps0]; after_results_simp <;> rfl
theorem s0_arg2 : W1 m ρ c (Proc.devRef .tc main_arg2) = (m ((c : Thread nD τ).loc main_arg2)) := by dsimp only [W1, hostOps0]; after_results_simp <;> rfl
theorem s0_arg6 : W1 m ρ c (Proc.devRef .tc main_arg6) = (m ((c : Thread nD τ).loc main_arg6)) := by dsimp only [W1, hostOps0]; after_results_simp <;> rfl
theorem s0_arg7 : W1 m ρ c (Proc.devRef .tc main_arg7) = (m ((c : Thread nD τ).loc main_arg7)) := by dsimp only [W1, hostOps0]; after_results_simp <;> rfl
theorem s0_arg8 : W1 m ρ c (Proc.devRef .tc main_arg8) = (m ((c : Thread nD τ).loc main_arg8)) := by dsimp only [W1, hostOps0]; after_results_simp <;> rfl
theorem s0_arg9 : W1 m ρ c (Proc.devRef .tc main_arg9) = (m ((c : Thread nD τ).loc main_arg9)) := by dsimp only [W1, hostOps0]; after_results_simp <;> rfl
theorem s0_arg10 : W1 m ρ c (Proc.devRef .tc main_arg10) = (m ((c : Thread nD τ).loc main_arg10)) := by dsimp only [W1, hostOps0]; after_results_simp <;> rfl
theorem s0_arg11 : W1 m ρ c (Proc.devRef .tc main_arg11) = (m ((c : Thread nD τ).loc main_arg11)) := by dsimp only [W1, hostOps0]; after_results_simp <;> rfl
theorem s0_arg12 : W1 m ρ c (Proc.devRef .tc main_arg12) = (m ((c : Thread nD τ).loc main_arg12)) := by dsimp only [W1, hostOps0]; after_results_simp <;> rfl
theorem s0_arg13 : W1 m ρ c (Proc.devRef .tc main_arg13) = (m ((c : Thread nD τ).loc main_arg13)) := by dsimp only [W1, hostOps0]; after_results_simp <;> rfl
theorem s0_arg14 : W1 m ρ c (Proc.devRef .tc main_arg14) = (m ((c : Thread nD τ).loc main_arg14)) := by dsimp only [W1, hostOps0]; after_results_simp <;> rfl
theorem s0_arg15 : W1 m ρ c (Proc.devRef .tc main_arg15) = (m ((c : Thread nD τ).loc main_arg15)) := by dsimp only [W1, hostOps0]; after_results_simp <;> rfl

/-! ## The stretch after region 0: column statistics of its result -/

theorem s1_v20 : W3 m ρ c (Proc.devRef .tc main_v20) = W2 m ρ c (Proc.devRef .tc main_v20) := by dsimp only [W3, hostOps1]; after_results_simp <;> rfl
theorem s1_v24 : W3 m ρ c (Proc.devRef .tc main_v24) = shapeCast _ (Cert.RefFns.meanVec (W2 m ρ c (Proc.devRef .tc main_v20))) shapeCasts_S256_S1x256 := by dsimp only [W3, hostOps1]; after_results_simp <;> rfl
theorem s1_v31 : W3 m ρ c (Proc.devRef .tc main_v31) = shapeCast _ (Cert.RefFns.varVec (W2 m ρ c (Proc.devRef .tc main_v20))
    (broadcastInDim S50000x256 ![0, 1] bcast_S1x256_S50000x256_0_1 (shapeCast _ (Cert.RefFns.meanVec (W2 m ρ c (Proc.devRef .tc main_v20))) shapeCasts_S256_S1x256))) shapeCasts_S256_S1x256 := by dsimp only [W3, hostOps1]; after_results_simp <;> rfl
theorem s1_v32 : W3 m ρ c (Proc.devRef .tc main_v32) = shapeCast _ (W2 m ρ c (Proc.devRef .tc main_arg6)) shapeCasts_S256_S1x256 := by dsimp only [W3, hostOps1]; after_results_simp <;> rfl
theorem s1_v33 : W3 m ρ c (Proc.devRef .tc main_v33) = shapeCast _ (W2 m ρ c (Proc.devRef .tc main_arg7)) shapeCasts_S256_S1x256 := by dsimp only [W3, hostOps1]; after_results_simp <;> rfl

/-! ## The stretch after region 1: the next layer's aggregate and parameters -/

theorem s2_v34 : W5 m ρ c (Proc.devRef .tc main_v34) = W4 m ρ c (Proc.devRef .tc main_v34) := by dsimp only [W5, hostOps2]; after_results_simp <;> rfl
theorem s2_v47 : W5 m ρ c (Proc.devRef .tc main_v47) = Cert.RefFns.agg256 (W4 m ρ c (Proc.devRef .tc main_v34)) (W4 m ρ c (Proc.devRef .tc main_v1)) (W4 m ρ c (Proc.devRef .tc main_v3)) (W4 m ρ c (Proc.devRef .tc main_arg2)) := by dsimp only [W5, hostOps2]; after_results_simp <;> rfl
theorem s2_v48 : W5 m ρ c (Proc.devRef .tc main_v48) = transpose S256x256 [1, 0] (W4 m ρ c (Proc.devRef .tc main_arg8)) transposes_S256x256_S256x256_1_0 := by dsimp only [W5, hostOps2]; after_results_simp <;> rfl
theorem s2_v49 : W5 m ρ c (Proc.devRef .tc main_v49) = transpose S256x256 [1, 0] (W4 m ρ c (Proc.devRef .tc main_arg10)) transposes_S256x256_S256x256_1_0 := by dsimp only [W5, hostOps2]; after_results_simp <;> rfl
theorem s2_v50 : W5 m ρ c (Proc.devRef .tc main_v50) = shapeCast _ (W4 m ρ c (Proc.devRef .tc main_arg9)) shapeCasts_S256_S1x256 := by dsimp only [W5, hostOps2]; after_results_simp <;> rfl

/-! ## The stretch after region 2: column statistics of its result -/

theorem s3_v51 : W7 m ρ c (Proc.devRef .tc main_v51) = W6 m ρ c (Proc.devRef .tc main_v51) := by dsimp only [W7, hostOps3]; after_results_simp <;> rfl
theorem s3_v55 : W7 m ρ c (Proc.devRef .tc main_v55) = shapeCast _ (Cert.RefFns.meanVec (W6 m ρ c (Proc.devRef .tc main_v51))) shapeCasts_S256_S1x256 := by dsimp only [W7, hostOps3]; after_results_simp <;> rfl
theorem s3_v62 : W7 m ρ c (Proc.devRef .tc main_v62) = shapeCast _ (Cert.RefFns.varVec (W6 m ρ c (Proc.devRef .tc main_v51))
    (broadcastInDim S50000x256 ![0, 1] bcast_S1x256_S50000x256_0_1 (shapeCast _ (Cert.RefFns.meanVec (W6 m ρ c (Proc.devRef .tc main_v51))) shapeCasts_S256_S1x256))) shapeCasts_S256_S1x256 := by dsimp only [W7, hostOps3]; after_results_simp <;> rfl
theorem s3_v63 : W7 m ρ c (Proc.devRef .tc main_v63) = shapeCast _ (W6 m ρ c (Proc.devRef .tc main_arg11)) shapeCasts_S256_S1x256 := by dsimp only [W7, hostOps3]; after_results_simp <;> rfl
theorem s3_v64 : W7 m ρ c (Proc.devRef .tc main_v64) = shapeCast _ (W6 m ρ c (Proc.devRef .tc main_arg12)) shapeCasts_S256_S1x256 := by dsimp only [W7, hostOps3]; after_results_simp <;> rfl

/-! ## The stretch after region 3: the next layer's aggregate and parameters -/

theorem s4_v65 : W9 m ρ c (Proc.devRef .tc main_v65) = W8 m ρ c (Proc.devRef .tc main_v65) := by dsimp only [W9, hostOps4]; after_results_simp <;> rfl
theorem s4_v78 : W9 m ρ c (Proc.devRef .tc main_v78) = Cert.RefFns.agg256 (W8 m ρ c (Proc.devRef .tc main_v65)) (W8 m ρ c (Proc.devRef .tc main_v1)) (W8 m ρ c (Proc.devRef .tc main_v3)) (W8 m ρ c (Proc.devRef .tc main_arg2)) := by dsimp only [W9, hostOps4]; after_results_simp <;> rfl
theorem s4_v79 : W9 m ρ c (Proc.devRef .tc main_v79) = transpose S256x64 [1, 0] (W8 m ρ c (Proc.devRef .tc main_arg13)) transposes_S64x256_S256x64_1_0 := by dsimp only [W9, hostOps4]; after_results_simp <;> rfl
theorem s4_v80 : W9 m ρ c (Proc.devRef .tc main_v80) = transpose S256x64 [1, 0] (W8 m ρ c (Proc.devRef .tc main_arg15)) transposes_S64x256_S256x64_1_0 := by dsimp only [W9, hostOps4]; after_results_simp <;> rfl
theorem s4_v81 : W9 m ρ c (Proc.devRef .tc main_v81) = shapeCast _ (W8 m ρ c (Proc.devRef .tc main_arg14)) shapeCasts_S64_S1x64 := by dsimp only [W9, hostOps4]; after_results_simp <;> rfl

end Cert.KernelIdeal.Hand

end
-- ==== Proof.Keep.lean ====
/-
  Buffers that later stages read but no intermediate stage writes: the two index vectors taken from the edge list, the
  edge weights and the parameters of the later layers. Through each region (which replaces only its own arrays) and
  each stretch of host operations (which writes only its own results) such a buffer keeps what it held after the first
  stretch of host operations.
-/
import proofs.«162949_j2602750181462_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg) (c : Dev nD)

/-! ## After region 0 -/
theorem keep2_v1 : W2 m ρ c (Proc.devRef .tc main_v1) = W1 m ρ c (Proc.devRef .tc main_v1) :=
  (W2_of_ne m ρ c main_v1 (by decide))
theorem keep2_v3 : W2 m ρ c (Proc.devRef .tc main_v3) = W1 m ρ c (Proc.devRef .tc main_v3) :=
  (W2_of_ne m ρ c main_v3 (by decide))
theorem keep2_arg2 : W2 m ρ c (Proc.devRef .tc main_arg2) = W1 m ρ c (Proc.devRef .tc main_arg2) :=
  (W2_of_ne m ρ c main_arg2 (by decide))
theorem keep2_arg6 : W2 m ρ c (Proc.devRef .tc main_arg6) = W1 m ρ c (Proc.devRef .tc main_arg6) :=
  (W2_of_ne m ρ c main_arg6 (by decide))
theorem keep2_arg7 : W2 m ρ c (Proc.devRef .tc main_arg7) = W1 m ρ c (Proc.devRef .tc main_arg7) :=
  (W2_of_ne m ρ c main_arg7 (by decide))
theorem keep2_arg8 : W2 m ρ c (Proc.devRef .tc main_arg8) = W1 m ρ c (Proc.devRef .tc main_arg8) :=
  (W2_of_ne m ρ c main_arg8 (by decide))
theorem keep2_arg9 : W2 m ρ c (Proc.devRef .tc main_arg9) = W1 m ρ c (Proc.devRef .tc main_arg9) :=
  (W2_of_ne m ρ c main_arg9 (by decide))
theorem keep2_arg10 : W2 m ρ c (Proc.devRef .tc main_arg10) = W1 m ρ c (Proc.devRef .tc main_arg10) :=
  (W2_of_ne m ρ c main_arg10 (by decide))
theorem keep2_arg11 : W2 m ρ c (Proc.devRef .tc main_arg11) = W1 m ρ c (Proc.devRef .tc main_arg11) :=
  (W2_of_ne m ρ c main_arg11 (by decide))
theorem keep2_arg12 : W2 m ρ c (Proc.devRef .tc main_arg12) = W1 m ρ c (Proc.devRef .tc main_arg12) :=
  (W2_of_ne m ρ c main_arg12 (by decide))
theorem keep2_arg13 : W2 m ρ c (Proc.devRef .tc main_arg13) = W1 m ρ c (Proc.devRef .tc main_arg13) :=
  (W2_of_ne m ρ c main_arg13 (by decide))
theorem keep2_arg14 : W2 m ρ c (Proc.devRef .tc main_arg14) = W1 m ρ c (Proc.devRef .tc main_arg14) :=
  (W2_of_ne m ρ c main_arg14 (by decide))
theorem keep2_arg15 : W2 m ρ c (Proc.devRef .tc main_arg15) = W1 m ρ c (Proc.devRef .tc main_arg15) :=
  (W2_of_ne m ρ c main_arg15 (by decide))

/-! ## After the stretch of host operations before region 1 -/
theorem keep3_v1 : W3 m ρ c (Proc.devRef .tc main_v1) = W1 m ρ c (Proc.devRef .tc main_v1) :=
  ((by dsimp only [W3, hostOps1]; after_results <;> rfl : W3 m ρ c (Proc.devRef .tc main_v1) = W2 m ρ c (Proc.devRef .tc main_v1))).trans (keep2_v1 m ρ c)
theorem keep3_v3 : W3 m ρ c (Proc.devRef .tc main_v3) = W1 m ρ c (Proc.devRef .tc main_v3) :=
  ((by dsimp only [W3, hostOps1]; after_results <;> rfl : W3 m ρ c (Proc.devRef .tc main_v3) = W2 m ρ c (Proc.devRef .tc main_v3))).trans (keep2_v3 m ρ c)
theorem keep3_arg2 : W3 m ρ c (Proc.devRef .tc main_arg2) = W1 m ρ c (Proc.devRef .tc main_arg2) :=
  ((by dsimp only [W3, hostOps1]; after_results <;> rfl : W3 m ρ c (Proc.devRef .tc main_arg2) = W2 m ρ c (Proc.devRef .tc main_arg2))).trans (keep2_arg2 m ρ c)
theorem keep3_arg8 : W3 m ρ c (Proc.devRef .tc main_arg8) = W1 m ρ c (Proc.devRef .tc main_arg8) :=
  ((by dsimp only [W3, hostOps1]; after_results <;> rfl : W3 m ρ c (Proc.devRef .tc main_arg8) = W2 m ρ c (Proc.devRef .tc main_arg8))).trans (keep2_arg8 m ρ c)
theorem keep3_arg9 : W3 m ρ c (Proc.devRef .tc main_arg9) = W1 m ρ c (Proc.devRef .tc main_arg9) :=
  ((by dsimp only [W3, hostOps1]; after_results <;> rfl : W3 m ρ c (Proc.devRef .tc main_arg9) = W2 m ρ c (Proc.devRef .tc main_arg9))).trans (keep2_arg9 m ρ c)
theorem keep3_arg10 : W3 m ρ c (Proc.devRef .tc main_arg10) = W1 m ρ c (Proc.devRef .tc main_arg10) :=
  ((by dsimp only [W3, hostOps1]; after_results <;> rfl : W3 m ρ c (Proc.devRef .tc main_arg10) = W2 m ρ c (Proc.devRef .tc main_arg10))).trans (keep2_arg10 m ρ c)
theorem keep3_arg11 : W3 m ρ c (Proc.devRef .tc main_arg11) = W1 m ρ c (Proc.devRef .tc main_arg11) :=
  ((by dsimp only [W3, hostOps1]; after_results <;> rfl : W3 m ρ c (Proc.devRef .tc main_arg11) = W2 m ρ c (Proc.devRef .tc main_arg11))).trans (keep2_arg11 m ρ c)
theorem keep3_arg12 : W3 m ρ c (Proc.devRef .tc main_arg12) = W1 m ρ c (Proc.devRef .tc main_arg12) :=
  ((by dsimp only [W3, hostOps1]; after_results <;> rfl : W3 m ρ c (Proc.devRef .tc main_arg12) = W2 m ρ c (Proc.devRef .tc main_arg12))).trans (keep2_arg12 m ρ c)
theorem keep3_arg13 : W3 m ρ c (Proc.devRef .tc main_arg13) = W1 m ρ c (Proc.devRef .tc main_arg13) :=
  ((by dsimp only [W3, hostOps1]; after_results <;> rfl : W3 m ρ c (Proc.devRef .tc main_arg13) = W2 m ρ c (Proc.devRef .tc main_arg13))).trans (keep2_arg13 m ρ c)
theorem keep3_arg14 : W3 m ρ c (Proc.devRef .tc main_arg14) = W1 m ρ c (Proc.devRef .tc main_arg14) :=
  ((by dsimp only [W3, hostOps1]; after_results <;> rfl : W3 m ρ c (Proc.devRef .tc main_arg14) = W2 m ρ c (Proc.devRef .tc main_arg14))).trans (keep2_arg14 m ρ c)
theorem keep3_arg15 : W3 m ρ c (Proc.devRef .tc main_arg15) = W1 m ρ c (Proc.devRef .tc main_arg15) :=
  ((by dsimp only [W3, hostOps1]; after_results <;> rfl : W3 m ρ c (Proc.devRef .tc main_arg15) = W2 m ρ c (Proc.devRef .tc main_arg15))).trans (keep2_arg15 m ρ c)

/-! ## After region 1 -/
theorem keep4_v1 : W4 m ρ c (Proc.devRef .tc main_v1) = W1 m ρ c (Proc.devRef .tc main_v1) :=
  (W4_of_ne m ρ c main_v1 (by decide)).trans (keep3_v1 m ρ c)
theorem keep4_v3 : W4 m ρ c (Proc.devRef .tc main_v3) = W1 m ρ c (Proc.devRef .tc main_v3) :=
  (W4_of_ne m ρ c main_v3 (by decide)).trans (keep3_v3 m ρ c)
theorem keep4_arg2 : W4 m ρ c (Proc.devRef .tc main_arg2) = W1 m ρ c (Proc.devRef .tc main_arg2) :=
  (W4_of_ne m ρ c main_arg2 (by decide)).trans (keep3_arg2 m ρ c)
theorem keep4_arg8 : W4 m ρ c (Proc.devRef .tc main_arg8) = W1 m ρ c (Proc.devRef .tc main_arg8) :=
  (W4_of_ne m ρ c main_arg8 (by decide)).trans (keep3_arg8 m ρ c)
theorem keep4_arg9 : W4 m ρ c (Proc.devRef .tc main_arg9) = W1 m ρ c (Proc.devRef .tc main_arg9) :=
  (W4_of_ne m ρ c main_arg9 (by decide)).trans (keep3_arg9 m ρ c)
theorem keep4_arg10 : W4 m ρ c (Proc.devRef .tc main_arg10) = W1 m ρ c (Proc.devRef .tc main_arg10) :=
  (W4_of_ne m ρ c main_arg10 (by decide)).trans (keep3_arg10 m ρ c)
theorem keep4_arg11 : W4 m ρ c (Proc.devRef .tc main_arg11) = W1 m ρ c (Proc.devRef .tc main_arg11) :=
  (W4_of_ne m ρ c main_arg11 (by decide)).trans (keep3_arg11 m ρ c)
theorem keep4_arg12 : W4 m ρ c (Proc.devRef .tc main_arg12) = W1 m ρ c (Proc.devRef .tc main_arg12) :=
  (W4_of_ne m ρ c main_arg12 (by decide)).trans (keep3_arg12 m ρ c)
theorem keep4_arg13 : W4 m ρ c (Proc.devRef .tc main_arg13) = W1 m ρ c (Proc.devRef .tc main_arg13) :=
  (W4_of_ne m ρ c main_arg13 (by decide)).trans (keep3_arg13 m ρ c)
theorem keep4_arg14 : W4 m ρ c (Proc.devRef .tc main_arg14) = W1 m ρ c (Proc.devRef .tc main_arg14) :=
  (W4_of_ne m ρ c main_arg14 (by decide)).trans (keep3_arg14 m ρ c)
theorem keep4_arg15 : W4 m ρ c (Proc.devRef .tc main_arg15) = W1 m ρ c (Proc.devRef .tc main_arg15) :=
  (W4_of_ne m ρ c main_arg15 (by decide)).trans (keep3_arg15 m ρ c)

/-! ## After the stretch of host operations before region 2 -/
theorem keep5_v1 : W5 m ρ c (Proc.devRef .tc main_v1) = W1 m ρ c (Proc.devRef .tc main_v1) :=
  ((by dsimp only [W5, hostOps2]; after_results <;> rfl : W5 m ρ c (Proc.devRef .tc main_v1) = W4 m ρ c (Proc.devRef .tc main_v1))).trans (keep4_v1 m ρ c)
theorem keep5_v3 : W5 m ρ c (Proc.devRef .tc main_v3) = W1 m ρ c (Proc.devRef .tc main_v3) :=
  ((by dsimp only [W5, hostOps2]; after_results <;> rfl : W5 m ρ c (Proc.devRef .tc main_v3) = W4 m ρ c (Proc.devRef .tc main_v3))).trans (keep4_v3 m ρ c)
theorem keep5_arg2 : W5 m ρ c (Proc.devRef .tc main_arg2) = W1 m ρ c (Proc.devRef .tc main_arg2) :=
  ((by dsimp only [W5, hostOps2]; after_results <;> rfl : W5 m ρ c (Proc.devRef .tc main_arg2) = W4 m ρ c (Proc.devRef .tc main_arg2))).trans (keep4_arg2 m ρ c)
theorem keep5_arg11 : W5 m ρ c (Proc.devRef .tc main_arg11) = W1 m ρ c (Proc.devRef .tc main_arg11) :=
  ((by dsimp only [W5, hostOps2]; after_results <;> rfl : W5 m ρ c (Proc.devRef .tc main_arg11) = W4 m ρ c (Proc.devRef .tc main_arg11))).trans (keep4_arg11 m ρ c)
theorem keep5_arg12 : W5 m ρ c (Proc.devRef .tc main_arg12) = W1 m ρ c (Proc.devRef .tc main_arg12) :=
  ((by dsimp only [W5, hostOps2]; after_results <;> rfl : W5 m ρ c (Proc.devRef .tc main_arg12) = W4 m ρ c (Proc.devRef .tc main_arg12))).trans (keep4_arg12 m ρ c)
theorem keep5_arg13 : W5 m ρ c (Proc.devRef .tc main_arg13) = W1 m ρ c (Proc.devRef .tc main_arg13) :=
  ((by dsimp only [W5, hostOps2]; after_results <;> rfl : W5 m ρ c (Proc.devRef .tc main_arg13) = W4 m ρ c (Proc.devRef .tc main_arg13))).trans (keep4_arg13 m ρ c)
theorem keep5_arg14 : W5 m ρ c (Proc.devRef .tc main_arg14) = W1 m ρ c (Proc.devRef .tc main_arg14) :=
  ((by dsimp only [W5, hostOps2]; after_results <;> rfl : W5 m ρ c (Proc.devRef .tc main_arg14) = W4 m ρ c (Proc.devRef .tc main_arg14))).trans (keep4_arg14 m ρ c)
theorem keep5_arg15 : W5 m ρ c (Proc.devRef .tc main_arg15) = W1 m ρ c (Proc.devRef .tc main_arg15) :=
  ((by dsimp only [W5, hostOps2]; after_results <;> rfl : W5 m ρ c (Proc.devRef .tc main_arg15) = W4 m ρ c (Proc.devRef .tc main_arg15))).trans (keep4_arg15 m ρ c)

/-! ## After region 2 -/
theorem keep6_v1 : W6 m ρ c (Proc.devRef .tc main_v1) = W1 m ρ c (Proc.devRef .tc main_v1) :=
  (W6_of_ne m ρ c main_v1 (by decide)).trans (keep5_v1 m ρ c)
theorem keep6_v3 : W6 m ρ c (Proc.devRef .tc main_v3) = W1 m ρ c (Proc.devRef .tc main_v3) :=
  (W6_of_ne m ρ c main_v3 (by decide)).trans (keep5_v3 m ρ c)
theorem keep6_arg2 : W6 m ρ c (Proc.devRef .tc main_arg2) = W1 m ρ c (Proc.devRef .tc main_arg2) :=
  (W6_of_ne m ρ c main_arg2 (by decide)).trans (keep5_arg2 m ρ c)
theorem keep6_arg11 : W6 m ρ c (Proc.devRef .tc main_arg11) = W1 m ρ c (Proc.devRef .tc main_arg11) :=
  (W6_of_ne m ρ c main_arg11 (by decide)).trans (keep5_arg11 m ρ c)
theorem keep6_arg12 : W6 m ρ c (Proc.devRef .tc main_arg12) = W1 m ρ c (Proc.devRef .tc main_arg12) :=
  (W6_of_ne m ρ c main_arg12 (by decide)).trans (keep5_arg12 m ρ c)
theorem keep6_arg13 : W6 m ρ c (Proc.devRef .tc main_arg13) = W1 m ρ c (Proc.devRef .tc main_arg13) :=
  (W6_of_ne m ρ c main_arg13 (by decide)).trans (keep5_arg13 m ρ c)
theorem keep6_arg14 : W6 m ρ c (Proc.devRef .tc main_arg14) = W1 m ρ c (Proc.devRef .tc main_arg14) :=
  (W6_of_ne m ρ c main_arg14 (by decide)).trans (keep5_arg14 m ρ c)
theorem keep6_arg15 : W6 m ρ c (Proc.devRef .tc main_arg15) = W1 m ρ c (Proc.devRef .tc main_arg15) :=
  (W6_of_ne m ρ c main_arg15 (by decide)).trans (keep5_arg15 m ρ c)

/-! ## After the stretch of host operations before region 3 -/
theorem keep7_v1 : W7 m ρ c (Proc.devRef .tc main_v1) = W1 m ρ c (Proc.devRef .tc main_v1) :=
  ((by dsimp only [W7, hostOps3]; after_results <;> rfl : W7 m ρ c (Proc.devRef .tc main_v1) = W6 m ρ c (Proc.devRef .tc main_v1))).trans (keep6_v1 m ρ c)
theorem keep7_v3 : W7 m ρ c (Proc.devRef .tc main_v3) = W1 m ρ c (Proc.devRef .tc main_v3) :=
  ((by dsimp only [W7, hostOps3]; after_results <;> rfl : W7 m ρ c (Proc.devRef .tc main_v3) = W6 m ρ c (Proc.devRef .tc main_v3))).trans (keep6_v3 m ρ c)
theorem keep7_arg2 : W7 m ρ c (Proc.devRef .tc main_arg2) = W1 m ρ c (Proc.devRef .tc main_arg2) :=
  ((by dsimp only [W7, hostOps3]; after_results <;> rfl : W7 m ρ c (Proc.devRef .tc main_arg2) = W6 m ρ c (Proc.devRef .tc main_arg2))).trans (keep6_arg2 m ρ c)
theorem keep7_arg13 : W7 m ρ c (Proc.devRef .tc main_arg13) = W1 m ρ c (Proc.devRef .tc main_arg13) :=
  ((by dsimp only [W7, hostOps3]; after_results <;> rfl : W7 m ρ c (Proc.devRef .tc main_arg13) = W6 m ρ c (Proc.devRef .tc main_arg13))).trans (keep6_arg13 m ρ c)
theorem keep7_arg14 : W7 m ρ c (Proc.devRef .tc main_arg14) = W1 m ρ c (Proc.devRef .tc main_arg14) :=
  ((by dsimp only [W7, hostOps3]; after_results <;> rfl : W7 m ρ c (Proc.devRef .tc main_arg14) = W6 m ρ c (Proc.devRef .tc main_arg14))).trans (keep6_arg14 m ρ c)
theorem keep7_arg15 : W7 m ρ c (Proc.devRef .tc main_arg15) = W1 m ρ c (Proc.devRef .tc main_arg15) :=
  ((by dsimp only [W7, hostOps3]; after_results <;> rfl : W7 m ρ c (Proc.devRef .tc main_arg15) = W6 m ρ c (Proc.devRef .tc main_arg15))).trans (keep6_arg15 m ρ c)

/-! ## After region 3 -/
theorem keep8_v1 : W8 m ρ c (Proc.devRef .tc main_v1) = W1 m ρ c (Proc.devRef .tc main_v1) :=
  (W8_of_ne m ρ c main_v1 (by decide)).trans (keep7_v1 m ρ c)
theorem keep8_v3 : W8 m ρ c (Proc.devRef .tc main_v3) = W1 m ρ c (Proc.devRef .tc main_v3) :=
  (W8_of_ne m ρ c main_v3 (by decide)).trans (keep7_v3 m ρ c)
theorem keep8_arg2 : W8 m ρ c (Proc.devRef .tc main_arg2) = W1 m ρ c (Proc.devRef .tc main_arg2) :=
  (W8_of_ne m ρ c main_arg2 (by decide)).trans (keep7_arg2 m ρ c)
theorem keep8_arg13 : W8 m ρ c (Proc.devRef .tc main_arg13) = W1 m ρ c (Proc.devRef .tc main_arg13) :=
  (W8_of_ne m ρ c main_arg13 (by decide)).trans (keep7_arg13 m ρ c)
theorem keep8_arg14 : W8 m ρ c (Proc.devRef .tc main_arg14) = W1 m ρ c (Proc.devRef .tc main_arg14) :=
  (W8_of_ne m ρ c main_arg14 (by decide)).trans (keep7_arg14 m ρ c)
theorem keep8_arg15 : W8 m ρ c (Proc.devRef .tc main_arg15) = W1 m ρ c (Proc.devRef .tc main_arg15) :=
  (W8_of_ne m ρ c main_arg15 (by decide)).trans (keep7_arg15 m ρ c)

end Cert.KernelIdeal.Hand

end
-- ==== Proof.LibLayerHost.lean ====
/-
  The reference's spelling of the two dense stages against `Layers.proj` and `Layers.normRelu`, on the extended reals
  (general in the extents).

  Projection. The host computes (A·P + rows b) + X·Q with `dot_general` for the products and the bias vector laid along
  every row; `Layers.proj` is (A·P + X·Q) + b. Entry by entry the two differ by the order of a three-term sum, and
  addition of extended reals is commutative and associative (also at the infinities), so they are equal with no
  condition on the operands.

  Normalisation. The host lays the vectors of column means, reciprocal roots, scales and shifts along every row (each
  vector made one row, the row laid down the rows) and applies subtract, multiply, multiply, add, maximum with zero;
  `Layers.normRelu` reads the same vectors as one-row matrices. Entry by entry the operations are the same in the same
  order. A vector made one row by a broadcast along axis 1 and the same vector cast to a one-row matrix are one array.
  (It imports this directory's copies of LibLayerStages.lean, LibRowTiles.lean, LibDenseRows.lean and LibMatDot.lean.)
-/
import proofs.«162949_j2602750181462_1_alg».proof.Proof.LibLayerStages

noncomputable section

open scoped BigOperators

namespace Cert.Bridge

open Idealize.ShloMosaic Idealize.ShloMosaic.ValueIdx Cert.Dense Cert.Layers

variable {M k n : ℕ}

/-- A vector made a one-row matrix by a broadcast along axis 1 is the vector cast to a one-row matrix. -/
theorem oneRow_eq {α : Type} (h1 : (⟨1, ![n]⟩ : Shape).BroadcastsInDim ⟨2, ![1, n]⟩ ![1])
    (hc : (⟨1, ![n]⟩ : Shape).ShapeCasts ⟨2, ![1, n]⟩) (v : (⟨1, ![n]⟩ : Shape).Idx → α) :
    broadcastInDim ⟨2, ![1, n]⟩ ![1] h1 v = shapeCast ⟨2, ![1, n]⟩ v hc := by
  funext i
  obtain ⟨u, d, rfl⟩ : ∃ (u : Fin 1) (d : Fin n), i = ix2 u d := ⟨i 0, i 1, eq_ix2 i⟩
  obtain rfl : u = 0 := Subsingleton.elim _ _
  rw [Cert.Lib.MatDot.broadcastInDim_vec_oneRow_apply h1 v 0 d, shapeCast_a_1a_apply v hc 0 d]

/-- The host's projection, (A·P + rows b) + X·Q, is `proj`, (A·P + X·Q) + b: a three-term sum reordered. -/
theorem hostLayer_eq (w : DotDims.WF ⟨2, ![M, k]⟩ ⟨2, ![k, n]⟩ ⟨2, ![M, n]⟩ [1] [0] [0] [1] [] [])
    (prec : Option ContractPrecision) (h1 : (⟨1, ![n]⟩ : Shape).BroadcastsInDim ⟨2, ![1, n]⟩ ![1])
    (h2 : (⟨2, ![1, n]⟩ : Shape).BroadcastsInDim ⟨2, ![M, n]⟩ ![0, 1]) (hc : (⟨1, ![n]⟩ : Shape).ShapeCasts ⟨2, ![1, n]⟩)
    (A X : FVec Ideal ⟨2, ![M, k]⟩ .f32) (P Q : FVec Ideal ⟨2, ![k, n]⟩ .f32) (br : FVec Ideal ⟨1, ![n]⟩ .f32) :
    addf (addf (Host.dotGeneral (⟨[1], [0], [0], [1], [], [], w⟩ : DotDims ⟨2, ![M, k]⟩ ⟨2, ![k, n]⟩ ⟨2, ![M, n]⟩) prec A P)
        (broadcastInDim ⟨2, ![M, n]⟩ ![0, 1] h2 (broadcastInDim ⟨2, ![1, n]⟩ ![1] h1 br)))
      (Host.dotGeneral (⟨[1], [0], [0], [1], [], [], w⟩ : DotDims ⟨2, ![M, k]⟩ ⟨2, ![k, n]⟩ ⟨2, ![M, n]⟩) prec X Q)
      = proj A X P Q (shapeCast ⟨2, ![1, n]⟩ br hc) := by
  rw [dotGeneral_eq w prec A P, dotGeneral_eq w prec X Q, add_rows_eq h1 h2 hc]
  funext i
  obtain ⟨r, d, rfl⟩ : ∃ (r : Fin M) (d : Fin n), i = ix2 r d := ⟨i 0, i 1, eq_ix2 i⟩
  rw [proj_apply, addf_apply, addRow_apply]
  exact add_right_comm _ _ _

/-- The host's normalisation and rectifier is `normRelu` of the same vectors as one-row matrices. -/
theorem hostNorm_eq (h1 : (⟨1, ![n]⟩ : Shape).BroadcastsInDim ⟨2, ![1, n]⟩ ![1])
    (h2 : (⟨2, ![1, n]⟩ : Shape).BroadcastsInDim ⟨2, ![M, n]⟩ ![0, 1]) (hc : (⟨1, ![n]⟩ : Shape).ShapeCasts ⟨2, ![1, n]⟩)
    (h0 : (⟨0, ![]⟩ : Shape).BroadcastsInDim ⟨2, ![M, n]⟩ ![]) (hs : (⟨0, ![]⟩ : Shape).BroadcastsInDim ⟨1, ![n]⟩ ![])
    (H : FVec Ideal ⟨2, ![M, n]⟩ .f32) (mu sg g be : FVec Ideal ⟨1, ![n]⟩ .f32) :
    maximumf (addf (mulf (mulf (subf H (broadcastInDim ⟨2, ![M, n]⟩ ![0, 1] h2 (broadcastInDim ⟨2, ![1, n]⟩ ![1] h1 mu)))
          (broadcastInDim ⟨2, ![M, n]⟩ ![0, 1] h2 (broadcastInDim ⟨2, ![1, n]⟩ ![1] h1
            (Host.rsqrt (addf sg (broadcastInDim ⟨1, ![n]⟩ ![] hs (constant (F := Ideal) ⟨0, ![]⟩ .f32 0x3727C5AC#32)))))))
          (broadcastInDim ⟨2, ![M, n]⟩ ![0, 1] h2 (broadcastInDim ⟨2, ![1, n]⟩ ![1] h1 g)))
          (broadcastInDim ⟨2, ![M, n]⟩ ![0, 1] h2 (broadcastInDim ⟨2, ![1, n]⟩ ![1] h1 be)))
        (broadcastInDim ⟨2, ![M, n]⟩ ![] h0 (constant (F := Ideal) ⟨0, ![]⟩ .f32 0x00000000#32))
      = normRelu H (shapeCast ⟨2, ![1, n]⟩ mu hc) (shapeCast ⟨2, ![1, n]⟩ sg hc) (shapeCast ⟨2, ![1, n]⟩ g hc)
          (shapeCast ⟨2, ![1, n]⟩ be hc) := by
  funext i
  obtain ⟨r, d, rfl⟩ : ∃ (r : Fin M) (d : Fin n), i = ix2 r d := ⟨i 0, i 1, eq_ix2 i⟩
  rw [maximumf_apply, addf_apply, mulf_apply, mulf_apply, subf_apply,
    Cert.Lib.MatDot.broadcastInDim_vec_rows_apply h1 h2 mu r d, Cert.Lib.MatDot.broadcastInDim_vec_rows_apply h1 h2 _ r d,
    Cert.Lib.MatDot.broadcastInDim_vec_rows_apply h1 h2 g r d, Cert.Lib.MatDot.broadcastInDim_vec_rows_apply h1 h2 be r d,
    broadcastInDim_scalar_apply, normRelu_apply, shapeCast_a_1a_apply mu hc 0 d, shapeCast_a_1a_apply sg hc 0 d,
    shapeCast_a_1a_apply g hc 0 d, shapeCast_a_1a_apply be hc 0 d]
  show max ((((H (ix2 r d) - mu (ix1 d)) * Ideal.rsqrt (sg (ix1 d) + broadcastInDim ⟨1, ![n]⟩ ![] hs (constant (F := Ideal) ⟨0, ![]⟩ .f32 0x3727C5AC#32) (ix1 d))) * g (ix1 d)) + be (ix1 d)) _ = _
  rw [broadcastInDim_scalar_apply]
  rfl

end Cert.Bridge

end
-- ==== Proof.RefStages.lean ====
/-
  The reference's stage functions at the ideal values against `Layers.proj` and `Layers.normRelu`: each projection
  is `proj` of the aggregate, the features, the two transposed weight matrices and the bias cast to one row; the
  normalisation with the rectifier is `normRelu` of the activations and of the column means, the column variances, the
  scale and the shift cast to one row. (The variance may be taken about the means laid along the rows from either
  one-row form of the mean vector: the two forms are one array.)
-/
import proofs.«162949_j2602750181462_1_alg».proof.Proof.RefFns
import proofs.«162949_j2602750181462_1_alg».proof.Proof.LibLayerHost

set_option maxRecDepth 16384

noncomputable section

namespace Cert.RefFns

open Cert.ReferenceIdeal Idealize.ShloMosaic
open Cert.ReferenceIdeal.Facts₀ Cert.ReferenceIdeal.Facts

theorem layer0_eq (hc : S256.ShapeCasts S1x256) (A X : FVec Ideal S50000x128 .f32) (Wr Wt : FVec Ideal S256x128 .f32) (br : FVec Ideal S256 .f32) :
    layer0 (F := Ideal) A X Wr Wt br
      = Cert.Layers.proj A X (transpose S128x256 [1, 0] Wr transposes_S256x128_S128x256_1_0)
          (transpose S128x256 [1, 0] Wt transposes_S256x128_S128x256_1_0) (shapeCast S1x256 br hc) :=
  Cert.Bridge.hostLayer_eq _ none _ _ hc A X _ _ br

theorem layer1_eq (hc : S256.ShapeCasts S1x256) (A X : FVec Ideal S50000x256 .f32) (Wr Wt : FVec Ideal S256x256 .f32) (br : FVec Ideal S256 .f32) :
    layer1 (F := Ideal) A X Wr Wt br
      = Cert.Layers.proj A X (transpose S256x256 [1, 0] Wr transposes_S256x256_S256x256_1_0)
          (transpose S256x256 [1, 0] Wt transposes_S256x256_S256x256_1_0) (shapeCast S1x256 br hc) :=
  Cert.Bridge.hostLayer_eq _ none _ _ hc A X _ _ br

theorem layer2_eq (hc : S64.ShapeCasts S1x64) (A X : FVec Ideal S50000x256 .f32) (Wr Wt : FVec Ideal S64x256 .f32) (br : FVec Ideal S64 .f32) :
    layer2 (F := Ideal) A X Wr Wt br
      = Cert.Layers.proj A X (transpose S256x64 [1, 0] Wr transposes_S64x256_S256x64_1_0)
          (transpose S256x64 [1, 0] Wt transposes_S64x256_S256x64_1_0) (shapeCast S1x64 br hc) :=
  Cert.Bridge.hostLayer_eq _ none _ _ hc A X _ _ br

theorem rows_eq (hc : S256.ShapeCasts S1x256) (v : FVec Ideal S256 .f32) :
    broadcastInDim S50000x256 ![0, 1] bcast_S1x256_S50000x256_0_1 (shapeCast S1x256 v hc) = rows (F := Ideal) v := by
  unfold rows
  rw [Cert.Bridge.oneRow_eq bcast_S256_S1x256_1 hc v]

theorem bnrelu_eq (hc : S256.ShapeCasts S1x256) (H : FVec Ideal S50000x256 .f32) (g be : FVec Ideal S256 .f32) :
    Cert.Layers.normRelu H (shapeCast S1x256 (meanVec (F := Ideal) H) hc)
        (shapeCast S1x256 (varVec (F := Ideal) H (broadcastInDim S50000x256 ![0, 1] bcast_S1x256_S50000x256_0_1 (shapeCast S1x256 (meanVec (F := Ideal) H) hc))) hc)
        (shapeCast S1x256 g hc) (shapeCast S1x256 be hc)
      = bnrelu (F := Ideal) H g be := by
  rw [rows_eq hc]
  exact (Cert.Bridge.hostNorm_eq _ _ hc _ _ H _ _ g be).symm

end Cert.RefFns

end
-- ==== Proof.KernelValue.lean ====
/-
  The kernel program's result as the reference's composition of stages. Each region's result array is `Layers.proj`
  or `Layers.normRelu` of the arrays the region found; each array a region finds is what the stretch of host operations
  before it computed (the reference's own stage functions of the previous results) or a buffer nothing has written
  since the first stretch; and `Layers.proj` / `Layers.normRelu` of those are the reference's projection and
  normalisation stages. Following the five regions in order gives, stage by stage, the activations after the first
  layer, after the second layer, and the result.
-/
import proofs.«162949_j2602750181462_1_alg».proof.Proof.Region0
import proofs.«162949_j2602750181462_1_alg».proof.Proof.Region1
import proofs.«162949_j2602750181462_1_alg».proof.Proof.Region2
import proofs.«162949_j2602750181462_1_alg».proof.Proof.Region3
import proofs.«162949_j2602750181462_1_alg».proof.Proof.Region4
import proofs.«162949_j2602750181462_1_alg».proof.Proof.HostStages
import proofs.«162949_j2602750181462_1_alg».proof.Proof.Keep
import proofs.«162949_j2602750181462_1_alg».proof.Proof.RefStages

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- After region 0: the first layer's projection. -/
theorem kv_proj0 : W2 m ρ c (Proc.devRef .tc main_v20)
    = Cert.RefFns.layer0 (Cert.RefFns.agg128 (m ((c : Thread nD τ).loc main_arg0)) (Cert.ReferenceIdeal.Read.val_main_v1 (m ((c : Thread nD τ).loc main_arg1))) (Cert.ReferenceIdeal.Read.val_main_v3 (m ((c : Thread nD τ).loc main_arg1))) (m ((c : Thread nD τ).loc main_arg2))) (m ((c : Thread nD τ).loc main_arg0)) (m ((c : Thread nD τ).loc main_arg3)) (m ((c : Thread nD τ).loc main_arg5)) (m ((c : Thread nD τ).loc main_arg4)) := by
  refine ((W2_arr m ρ c 5).trans (final0 (V1 m ρ) c)).trans ?_
  show Cert.Layers.proj (W1 m ρ c (Proc.devRef .tc main_v16)) (W1 m ρ c (Proc.devRef .tc main_arg0)) (W1 m ρ c (Proc.devRef .tc main_v17)) (W1 m ρ c (Proc.devRef .tc main_v18)) (W1 m ρ c (Proc.devRef .tc main_v19)) = _
  rw [s0_v16 m ρ c, s0_arg0 m ρ c, s0_v17 m ρ c, s0_v18 m ρ c, s0_v19 m ρ c]
  exact (Cert.RefFns.layer0_eq shapeCasts_S256_S1x256 _ _ _ _ _).symm

/-- After region 1: the activations after the first layer. -/
theorem kv_h1 : W4 m ρ c (Proc.devRef .tc main_v34) = (Cert.RefFns.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine ((W4_arr m ρ c 5).trans (final1 (V3 m ρ) c)).trans ?_
  show Cert.Layers.normRelu (W3 m ρ c (Proc.devRef .tc main_v20)) (W3 m ρ c (Proc.devRef .tc main_v24)) (W3 m ρ c (Proc.devRef .tc main_v31)) (W3 m ρ c (Proc.devRef .tc main_v32)) (W3 m ρ c (Proc.devRef .tc main_v33)) = _
  rw [s1_v20 m ρ c, s1_v24 m ρ c, s1_v31 m ρ c, s1_v32 m ρ c, s1_v33 m ρ c, keep2_arg6 m ρ c, keep2_arg7 m ρ c,
    s0_arg6 m ρ c, s0_arg7 m ρ c, kv_proj0 m ρ c]
  exact Cert.RefFns.bnrelu_eq shapeCasts_S256_S1x256 _ _ _

/-- After region 2: the second layer's projection. -/
theorem kv_proj1 : W6 m ρ c (Proc.devRef .tc main_v51)
    = Cert.RefFns.layer1 (Cert.RefFns.agg256 (Cert.RefFns.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (Cert.ReferenceIdeal.Read.val_main_v1 (m ((c : Thread nD τ).loc main_arg1))) (Cert.ReferenceIdeal.Read.val_main_v3 (m ((c : Thread nD τ).loc main_arg1))) (m ((c : Thread nD τ).loc main_arg2))) (Cert.RefFns.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg8)) (m ((c : Thread nD τ).loc main_arg10)) (m ((c : Thread nD τ).loc main_arg9)) := by
  refine ((W6_arr m ρ c 5).trans (final2 (V5 m ρ) c)).trans ?_
  show Cert.Layers.proj (W5 m ρ c (Proc.devRef .tc main_v47)) (W5 m ρ c (Proc.devRef .tc main_v34)) (W5 m ρ c (Proc.devRef .tc main_v48)) (W5 m ρ c (Proc.devRef .tc main_v49)) (W5 m ρ c (Proc.devRef .tc main_v50)) = _
  rw [s2_v47 m ρ c, s2_v34 m ρ c, s2_v48 m ρ c, s2_v49 m ρ c, s2_v50 m ρ c, kv_h1 m ρ c,
    keep4_v1 m ρ c, keep4_v3 m ρ c, keep4_arg2 m ρ c, keep4_arg8 m ρ c, keep4_arg9 m ρ c, keep4_arg10 m ρ c,
    s0_v1 m ρ c, s0_v3 m ρ c, s0_arg2 m ρ c, s0_arg8 m ρ c, s0_arg9 m ρ c, s0_arg10 m ρ c]
  exact (Cert.RefFns.layer1_eq shapeCasts_S256_S1x256 _ _ _ _ _).symm

/-- After region 3: the activations after the second layer. -/
theorem kv_h2 : W8 m ρ c (Proc.devRef .tc main_v65) = (Cert.RefFns.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine ((W8_arr m ρ c 5).trans (final3 (V7 m ρ) c)).trans ?_
  show Cert.Layers.normRelu (W7 m ρ c (Proc.devRef .tc main_v51)) (W7 m ρ c (Proc.devRef .tc main_v55)) (W7 m ρ c (Proc.devRef .tc main_v62)) (W7 m ρ c (Proc.devRef .tc main_v63)) (W7 m ρ c (Proc.devRef .tc main_v64)) = _
  rw [s3_v51 m ρ c, s3_v55 m ρ c, s3_v62 m ρ c, s3_v63 m ρ c, s3_v64 m ρ c, keep6_arg11 m ρ c, keep6_arg12 m ρ c,
    s0_arg11 m ρ c, s0_arg12 m ρ c, kv_proj1 m ρ c]
  exact Cert.RefFns.bnrelu_eq shapeCasts_S256_S1x256 _ _ _

/-- After region 4: the result. -/
theorem kv_out : W10 m ρ c (Proc.devRef .tc main_v82) = Cert.RefFns.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine ((W10_arr m ρ c 5).trans (final4 (V9 m ρ) c)).trans ?_
  show Cert.Layers.proj (W9 m ρ c (Proc.devRef .tc main_v78)) (W9 m ρ c (Proc.devRef .tc main_v65)) (W9 m ρ c (Proc.devRef .tc main_v79)) (W9 m ρ c (Proc.devRef .tc main_v80)) (W9 m ρ c (Proc.devRef .tc main_v81)) = _
  rw [s4_v78 m ρ c, s4_v65 m ρ c, s4_v79 m ρ c, s4_v80 m ρ c, s4_v81 m ρ c, kv_h2 m ρ c,
    keep8_v1 m ρ c, keep8_v3 m ρ c, keep8_arg2 m ρ c, keep8_arg13 m ρ c, keep8_arg14 m ρ c, keep8_arg15 m ρ c,
    s0_v1 m ρ c, s0_v3 m ρ c, s0_arg2 m ρ c, s0_arg13 m ρ c, s0_arg14 m ρ c, s0_arg15 m ρ c]
  exact (Cert.RefFns.layer2_eq shapeCasts_S64_S1x64 _ _ _ _ _).symm

end Cert.KernelIdeal.Hand

end
-- ==== Proof.lean ====
/-
  The claim of this certificate: a three-layer graph network (each layer aggregates the edge-weighted source rows into
  the destination rows and projects the aggregate and the features with two weight matrices and a bias; the first two
  layers are followed by a normalisation of every column by its mean and variance over the 50000 rows, an affine map and
  the rectifier), computed by five pipelined regions among host operations, against the same network written as one
  host program.

  The three frames are the generated ones (the reference's is its generated run with the result dropped). The kernel
  program's idealization rewrote nothing, so `preserves` has nothing to state. For `algebraic`: the kernel program's
  result array is, stage by stage, the reference's own composition of stage functions of the arguments
  (`KernelValue.kv_out`), and the reference's run ends at that composition (`RefFns.v118_eq`); the arguments agree,
  so the two results are one array. The only arithmetic law used is the commutativity and associativity of addition on
  the extended reals (a projection adds its bias before or after the second product), so the finiteness of the inputs is
  never opened.
-/
import proofs.«162949_j2602750181462_1_alg».proof.Defs
import proofs.«162949_j2602750181462_1_alg».proof.Proof.Gen.Kernel
import proofs.«162949_j2602750181462_1_alg».proof.Proof.Gen.Kernel.Skeleton
import proofs.«162949_j2602750181462_1_alg».proof.Proof.Gen.Kernel.Launch
import proofs.«162949_j2602750181462_1_alg».proof.Proof.Gen.Kernel.Points
import proofs.«162949_j2602750181462_1_alg».proof.Proof.Gen.Kernel.Frame
import proofs.«162949_j2602750181462_1_alg».proof.Proof.Gen.KernelIdeal
import proofs.«162949_j2602750181462_1_alg».proof.Proof.Gen.KernelIdeal.Skeleton
import proofs.«162949_j2602750181462_1_alg».proof.Proof.Gen.KernelIdeal.Launch
import proofs.«162949_j2602750181462_1_alg».proof.Proof.Gen.KernelIdeal.Points
import proofs.«162949_j2602750181462_1_alg».proof.Proof.Gen.KernelIdeal.Frame
import proofs.«162949_j2602750181462_1_alg».proof.Proof.Gen.ReferenceIdeal
import proofs.«162949_j2602750181462_1_alg».proof.Proof.Gen.ReferenceIdeal.Run
import proofs.«162949_j2602750181462_1_alg».proof.Proof.Gen.ReferenceIdeal.Read
import proofs.«162949_j2602750181462_1_alg».proof.Proof.Gen.Pre_finite_inputs
import proofs.«162949_j2602750181462_1_alg».proof.Proof.RunResult
import proofs.«162949_j2602750181462_1_alg».proof.Proof.KernelValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end, from memories that agree on the arguments, with the result array at the reference's composition
    of stages of the arguments. -/
theorem algebraic : Cert.algebraic_KernelIdeal_ReferenceIdeal := by
  intro m ρ m' ρ' _ hagree
  refine ⟨fun c => Cert.RefFns.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Hand.kv_out m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15⟩ := hagree c
    rw [Cert.ReferenceIdeal.Read.val_main_v118_eq, Cert.RefFns.v118_eq, a0, a1, a2, a3, a4, a5, a6, a7, a8, a9, a10, a11, a12,
      a13, a14, a15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
